-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x256 .f32) (main_arg1 : IVec S2x3200000 32) (main_arg2 : FVec F S256x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S5000x256 : Shape := ⟨2, ![5000, 256]⟩
abbrev S5000x1 : Shape := ⟨2, ![5000, 1]⟩
abbrev S5000x64 : Shape := ⟨2, ![5000, 64]⟩
abbrev S3300000x64 : Shape := ⟨2, ![3300000, 64]⟩
abbrev S1x64 : Shape := ⟨2, ![1, 64]⟩
abbrev S100000x32 : Shape := ⟨2, ![100000, 32]⟩
abbrev S5000x32 : Shape := ⟨2, ![5000, 32]⟩
abbrev S3300000x32 : Shape := ⟨2, ![3300000, 32]⟩
abbrev S1x32 : Shape := ⟨2, ![1, 32]⟩
abbrev S1x1 : Shape := ⟨2, ![1, 1]⟩

abbrev nBuf : Space → Nat
  | .hbm => 64
  | .vmem => 24
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S100000, .i32⟩
  | .hbm, ⟨13, _⟩ => ⟨S3300000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .bf16⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000x64, .bf16⟩
  | .hbm, ⟨40, _⟩ => ⟨S3300000x64, .f32⟩
  | .hbm, ⟨41, _⟩ => ⟨S_, .f32⟩
  | .hbm, ⟨42, _⟩ => ⟨S100000x64, .f32⟩
  | .hbm, ⟨43, _⟩ => ⟨S3300000x1, .i32⟩
  | .hbm, ⟨44, _⟩ => ⟨S100000x64, .f32⟩
  | .hbm, ⟨45, _⟩ => ⟨S1x64, .f32⟩
  | .hbm, ⟨46, _⟩ => ⟨S100000x32, .bf16⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .bf16⟩
  | .hbm, ⟨56, _⟩ => ⟨S3300000x32, .f32⟩
  | .hbm, ⟨57, _⟩ => ⟨S_, .f32⟩
  | .hbm, ⟨58, _⟩ => ⟨S100000x32, .f32⟩
  | .hbm, ⟨59, _⟩ => ⟨S3300000x1, .i32⟩
  | .hbm, ⟨60, _⟩ => ⟨S100000x32, .f32⟩
  | .hbm, ⟨61, _⟩ => ⟨S1x32, .f32⟩
  | .hbm, ⟨62, _⟩ => ⟨S1x1, .f32⟩
  | .hbm, ⟨63, _⟩ => ⟨S100000x1, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x32, .f32⟩
  | .local _ .vmem, ⟨13, _⟩ => ⟨S5000x32, .bf16⟩
  | .local _ .vmem, ⟨14, _⟩ => ⟨S5000x32, .bf16⟩
  | .local _ .vmem, ⟨15, _⟩ => ⟨S5000x32, .f32⟩
  | .local _ .vmem, ⟨16, _⟩ => ⟨S5000x32, .f32⟩
  | .local _ .vmem, ⟨17, _⟩ => ⟨S5000x1, .f32⟩
  | .local _ .vmem, ⟨18, _⟩ => ⟨S5000x1, .f32⟩
  | .local _ .vmem, ⟨19, _⟩ => ⟨S1x32, .f32⟩
  | .local _ .vmem, ⟨20, _⟩ => ⟨S32x1, .f32⟩
  | .local _ .vmem, ⟨21, _⟩ => ⟨S1x1, .f32⟩
  | .local _ .vmem, ⟨22, _⟩ => ⟨S5000x1, .f32⟩
  | .local _ .vmem, ⟨23, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  packedbf16_S5000x32_S5000x32_0_0 : (Rect.unit (s := S5000x32) ![0, 0] S5000x32.size inb_S5000x32_S5000x32_0_0).PackedRows (EltTy.packing .bf16)
  bcast_S_S100000x32 : S_.BroadcastsInDim S100000x32 (![] : Fin 0 → Fin S100000x32.rank)
  shapeCasts_S32_S1x32 : S32.ShapeCasts S1x32
  shapeCasts_S1_S1x1 : S1.ShapeCasts S1x1
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S3300000x1_S3300000_n_0_0_1_wf : ScatterDims.WF S100000 S3300000x1 S3300000 [] [0] [0] 1
  dot_S5000x256_S256x64_S5000x64_1_0_0_1_n_n_wf : DotDims.WF S5000x256 S256x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x32_S5000x32_1_0_0_1_n_n_wf : DotDims.WF S5000x64 S64x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .bf16 = 32 ∨ (Rect.block (s := S100000x32) S5000x32.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x1.size a ≤ S32x1.size a
  hwx2_3 : ∀ i : grid2.Coords, EltTy.bits .f32 = 32 ∨ (Rect.block (s := S32x1) S32x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S100000x1.size a
  hwx2_5 : ∀ i : grid2.Coords, EltTy.bits .f32 = 32 ∨ (Rect.block (s := S100000x1) S5000x1.size (cc2_transform_5 i) (hinb2_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S32x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S5000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000x64 : Shape := ⟨2, ![100000, 64]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x32 : Shape := ⟨2, ![100000, 32]⟩
abbrev S3300000x32 : Shape := ⟨2, ![3300000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S100000x256, .f32⟩
  | 1 => ⟨S2x3200000, .i32⟩
  | 2 => ⟨S256x64, .f32⟩
  | 3 => ⟨S64, .f32⟩
  | 4 => ⟨S64x32, .f32⟩
  | 5 => ⟨S32, .f32⟩
  | 6 => ⟨S32x1, .f32⟩
  | 7 => ⟨S1, .f32⟩
  | 8 => ⟨S1x3200000, .i32⟩
  | 9 => ⟨S3200000, .i32⟩
  | 10 => ⟨S1x3200000, .i32⟩
  | 11 => ⟨S3200000, .i32⟩
  | 12 => ⟨S100000x64, .f32⟩
  | 13 => ⟨S100000, .i32⟩
  | 14 => ⟨S3300000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x64, .f32⟩
  | 58 => ⟨S3300000x1, .f32⟩
  | 59 => ⟨S3300000x64, .f32⟩
  | 60 => ⟨S3300000x64, .f32⟩
  | 61 => ⟨S_, .f32⟩
  | 62 => ⟨S100000x64, .f32⟩
  | 63 => ⟨S3300000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x32, .f32⟩
  | 72 => ⟨S100000, .i32⟩
  | 73 => ⟨S3300000, .i32⟩
  | 74 => ⟨S3300000, .i32⟩
  | 75 => ⟨S_, .f32⟩
  | 76 => ⟨S3300000, .f32⟩
  | 77 => ⟨S_, .f32⟩
  | 78 => ⟨S100000, .f32⟩
  | 79 => ⟨S3300000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S3300000, .i32⟩
  | 91 => ⟨S3300000, .i1⟩
  | 92 => ⟨S_, .i32⟩
  | 93 => ⟨S3300000, .i32⟩
  | 94 => ⟨S3300000, .i32⟩
  | 95 => ⟨S3300000, .i32⟩
  | 96 => ⟨S3300000x1, .i32⟩
  | 97 => ⟨S3300000, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000, .f32⟩
  | 107 => ⟨S3300000, .f32⟩
  | 108 => ⟨S_, .i32⟩
  | 109 => ⟨S3300000, .i32⟩
  | 110 => ⟨S3300000, .i1⟩
  | 111 => ⟨S_, .i32⟩
  | 112 => ⟨S3300000, .i32⟩
  | 113 => ⟨S3300000, .i32⟩
  | 114 => ⟨S3300000, .i32⟩
  | 115 => ⟨S3300000x1, .i32⟩
  | 116 => ⟨S3300000x32, .f32⟩
  | 117 => ⟨S3300000x1, .f32⟩
  | 118 => ⟨S3300000x32, .f32⟩
  | 119 => ⟨S3300000x32, .f32⟩
  | 120 => ⟨S_, .f32⟩
  | 121 => ⟨S100000x32, .f32⟩
  | 122 => ⟨S3300000x1, .i32⟩
  | 123 => ⟨S100000x32, .f32⟩
  | 124 => ⟨S1x32, .f32⟩
  | 125 => ⟨S100000x32, .f32⟩
  | 126 => ⟨S100000x32, .f32⟩
  | 127 => ⟨S_, .f32⟩
  | _ => ⟨S100000x256, .f32⟩

abbrev hbmTy0_1 (i : Nat) : BufTy := match i % 128 with
  | 0 => ⟨S100000x32, .f32⟩
  | 1 => ⟨S100000x32, .f32⟩
  | 2 => ⟨S100000x1, .f32⟩
  | 3 => ⟨S1x1, .f32⟩
  | 4 => ⟨S100000x1, .f32⟩
  | 5 => ⟨S100000x1, .f32⟩
  | 6 => ⟨S100000x1, .f32⟩
  | 7 => ⟨S100000x1, .f32⟩
  | 8 => ⟨S_, .f32⟩
  | 9 => ⟨S100000x1, .f32⟩
  | 10 => ⟨S100000x1, .f32⟩
  | 11 => ⟨S_, .f32⟩
  | 12 => ⟨S100000x1, .f32⟩
  | 13 => ⟨S100000x1, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_20 : Ref sig .tc := ⟨.hbm, 136, rfl⟩
abbrev main_v98 : Ref sig .tc := ⟨.hbm, 137, rfl⟩
abbrev main_v99 : Ref sig .tc := ⟨.hbm, 138, rfl⟩
abbrev main_cst_21 : Ref sig .tc := ⟨.hbm, 139, rfl⟩
abbrev main_v100 : Ref sig .tc := ⟨.hbm, 140, rfl⟩
abbrev main_v101 : Ref sig .tc := ⟨.hbm, 141, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x256_S256x64_S100000x64_1_0_0_1_n_n_wf : DotDims.WF S100000x256 S256x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x1_S100000x1_1_0_0_1_n_n_wf : DotDims.WF S100000x32 S32x1 S100000x1 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.RunVal.lean ====
/-
  The idealized kernel's run with its result NAMED: every weakly fair execution of @main terminates, nothing
  faulting, with the result array at the last boundary's contents of its buffer (the fold of the host stretches and the
  regions' write-backs through the run) and the argument arrays as launched. The launch is the one the frame
  certificate makes over the same segments; only the final reading differs: it keeps the result buffer beside the arguments.
-/
import proofs.«146168_j62569083568519_2_alg».proof.Proof.Gen.KernelIdeal.Frame
import proofs.«146168_j62569083568519_2_alg».proof.Proof.Gen.KernelIdeal.Launch
import proofs.«146168_j62569083568519_2_alg».proof.Proof.Gen.KernelIdeal.Skeleton
import proofs.«146168_j62569083568519_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RunVal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_out : θ_run defs (onTc (τ := τ) (main (F := F))) ⟨m, fun _ => 0, ρ⟩ (fun r => ∀ c : Dev nD,
      r.2.mem ((c.tc : Thread nD τ).loc main_v43) = W8 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v43 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunVal

end
-- ==== Proof.Walk.lean ====
/-
  The contents of the buffers the three regions and the host stretches between them read, walked back through the run
  to where they were last written: an argument array is never written, so it holds its launch contents at every
  boundary; the edge endpoint arrays, the node weights and the weight column are written once, before the first
  region, and keep those contents to the end.
-/
import proofs.«146168_j62569083568519_2_alg».proof.Proof.Gen.KernelIdeal.Frame

set_option maxRecDepth 16384

noncomputable section

namespace Cert.KernelIdeal.Walk

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem w3_arg0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem w3_arg2 (c : Dev nD) : W3 m ρ c (Proc.devRef .tc main_arg2) = W0 m ρ c (Proc.devRef .tc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem w3_v14 (c : Dev nD) : W3 m ρ c (Proc.devRef .tc main_v14) = W2 m ρ c (Proc.devRef .tc main_v14) :=
  calc W3 m ρ c (Proc.devRef .tc main_v14)
    _ = W2 m ρ c (Proc.devRef .tc main_v14) := StableHlo.after_of_forall_not_mem (b := Proc.devRef .tc main_v14) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem w4_v5 (c : Dev nD) : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)

theorem w4_v6 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem w4_arg3 (c : Dev nD) : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem w5_v15 (c : Dev nD) : W5 m ρ c (Proc.devRef .tc main_v15) = W3 m ρ c (Proc.devRef .tc main_v15) :=
  calc W5 m ρ c (Proc.devRef .tc main_v15)
    _ = W4 m ρ c (Proc.devRef .tc main_v15) := StableHlo.after_of_forall_not_mem (b := Proc.devRef .tc main_v15) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := (W4_arr m ρ c 2).trans (((dat0 (V3 m ρ) c).arrAt_in 2 rfl _).trans (A_eq0 (V3 m ρ) c 2))

theorem w5_arg4 (c : Dev nD) : W5 m ρ c (Proc.devRef .tc main_arg4) = W0 m ρ c (Proc.devRef .tc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem w6_v5 (c : Dev nD) : W6 m ρ c (Proc.devRef .tc main_v5) = W3 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := StableHlo.after_of_forall_not_mem (b := Proc.devRef .tc main_v5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v5) := W4_of_ne m ρ c main_v5 (by decide)

theorem w6_v6 (c : Dev nD) : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

theorem w6_arg5 (c : Dev nD) : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem w6_arg7 (c : Dev nD) : W6 m ρ c (Proc.devRef .tc main_arg7) = W0 m ρ c (Proc.devRef .tc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem w7_v15 (c : Dev nD) : W7 m ρ c (Proc.devRef .tc main_v15) = W3 m ρ c (Proc.devRef .tc main_v15) :=
  calc W7 m ρ c (Proc.devRef .tc main_v15)
    _ = W6 m ρ c (Proc.devRef .tc main_v15) := StableHlo.after_of_forall_not_mem (b := Proc.devRef .tc main_v15) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v15) := (W6_arr m ρ c 1).trans (((dat1 (V5 m ρ) c).arrAt_in 1 rfl _).trans (A_eq1 (V5 m ρ) c 1))
    _ = W4 m ρ c (Proc.devRef .tc main_v15) := StableHlo.after_of_forall_not_mem (b := Proc.devRef .tc main_v15) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := (W4_arr m ρ c 2).trans (((dat0 (V3 m ρ) c).arrAt_in 2 rfl _).trans (A_eq0 (V3 m ρ) c 2))

theorem w7_arg6 (c : Dev nD) : W7 m ρ c (Proc.devRef .tc main_arg6) = W0 m ρ c (Proc.devRef .tc main_arg6) :=
  calc W7 m ρ c (Proc.devRef .tc main_arg6)
    _ = W6 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Walk

end
-- ==== Proof.Stages.lean ====
/-
  What each host stretch of the idealized kernel's @main leaves in the buffers the regions read next, as the
  operations' terms of the buffers the stretch finds — stated for ANY contents `Wv` at the stretch's entry, the
  buffers read named by hypotheses, so that the run's own contents are put in last.
-/
import proofs.«146168_j62569083568519_2_alg».proof.Proof.Gen.KernelIdeal.Launch
import Idealize.ShloMosaic.Lib.StableHlo.Run
import Idealize.ShloMosaic.PureOps.Ideal
import Idealize.ShloMosaic.PureOps.Ideal.Laws

noncomputable section

namespace Cert.KernelIdeal.Stages

open Cert.KernelIdeal Cert.KernelIdeal.Gen Idealize.ShloMosaic Idealize.ShloMosaic.TcCoe Idealize.SL.Sem Idealize.ShloMosaic.StableHlo

variable (Wv : Valuation τ sig (Elt Ideal))

/-- The sources as the gathers read them: a negative endpoint moved up by the number of nodes, as a column. -/
def srcCol (s : IVec S3300000 32) : IVec S3300000x1 32 :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)
/-- The destinations as the scatters read them: as a column. -/
def dstCol (d : IVec S3300000 32) : IVec S3300000x1 32 := broadcastInDim S3300000x1 ![0] bcast_S3300000_S3300000x1_0 d

/-- The weight column is the node weights reshaped. -/
theorem st_v15 (g : S100000.Idx → EReal) (hg : Wv (Proc.devRef .tc main_v14) = g) :
    StableHlo.after hostOps0_2 Wv (Proc.devRef .tc main_v15) = shapeCast S100000x1 g shapeCasts_S100000_S100000x1 := by
  subst hg
  after_results
  rfl

/-- The first layer's summed rows: the first region's rows gathered at the sources and summed at the destinations. -/
theorem st_v27 (d s : IVec S3300000 32) (H : S100000x64.Idx → EReal) (hd : Wv (Proc.devRef .tc main_v6) = d)
    (hs : Wv (Proc.devRef .tc main_v5) = s) (hH : Wv (Proc.devRef .tc main_v16) = H) :
    StableHlo.after hostOps1 Wv (Proc.devRef .tc main_v27)
      = Host.scatterAdd scatter_S100000x64_S3300000x1_S3300000x64_1_0_0_1
          (broadcastInDim S100000x64 ![] bcast_S_S100000x64 (constant (F := Ideal) S_ .f32 0x00000000#32)) (dstCol d)
          (extf (F := Ideal) .f32 (Host.gather gather_S100000x64_S3300000x1_S3300000x64_1_0_n_n_0_1_164 (H : FVec Ideal S100000x64 .bf16) (srcCol s)) bitsLt_bf16_f32) := by
  subst hd hs hH
  after_results
  rfl

/-- The first bias as a row. -/
theorem st_v28 (b : S64.Idx → EReal) (hb : Wv (Proc.devRef .tc main_arg3) = b) :
    StableHlo.after hostOps1 Wv (Proc.devRef .tc main_v28) = shapeCast S1x64 b shapeCasts_S64_S1x64 := by
  subst hb
  after_results
  rfl

/-- The second layer's summed rows. -/
theorem st_v40 (d s : IVec S3300000 32) (H : S100000x32.Idx → EReal) (hd : Wv (Proc.devRef .tc main_v6) = d)
    (hs : Wv (Proc.devRef .tc main_v5) = s) (hH : Wv (Proc.devRef .tc main_v29) = H) :
    StableHlo.after hostOps2 Wv (Proc.devRef .tc main_v40)
      = Host.scatterAdd scatter_S100000x32_S3300000x1_S3300000x32_1_0_0_1
          (broadcastInDim S100000x32 ![] bcast_S_S100000x32 (constant (F := Ideal) S_ .f32 0x00000000#32)) (dstCol d)
          (extf (F := Ideal) .f32 (Host.gather gather_S100000x32_S3300000x1_S3300000x32_1_0_n_n_0_1_132 (H : FVec Ideal S100000x32 .bf16) (srcCol s)) bitsLt_bf16_f32) := by
  subst hd hs hH
  after_results
  rfl

/-- The second bias as a row. -/
theorem st_v41 (b : S32.Idx → EReal) (hb : Wv (Proc.devRef .tc main_arg5) = b) :
    StableHlo.after hostOps2 Wv (Proc.devRef .tc main_v41) = shapeCast S1x32 b shapeCasts_S32_S1x32 := by
  subst hb
  after_results
  rfl

/-- The last bias as a one-by-one matrix. -/
theorem st_v42 (b : S1.Idx → EReal) (hb : Wv (Proc.devRef .tc main_arg7) = b) :
    StableHlo.after hostOps2 Wv (Proc.devRef .tc main_v42) = shapeCast S1x1 b shapeCasts_S1_S1x1 := by
  subst hb
  after_results
  rfl

end Cert.KernelIdeal.Stages

end
-- ==== Proof.Reg0.lean ====
/-
  What the first kernel region leaves in its output array: every row of `x · W` scaled by its node's weight.
  Block `t` of the output is rows `5000 t … 5000 t + 4999`; the body computes, from rows `5000 t …` of `x`, the whole of `W` and
  rows `5000 t …` of the weight column, the product `(∑ k, x[r, k] · W[k, c]) · w[r]` at every `(r, c)` of the block; the twenty
  blocks tile the array, so the array ends holding that function of the arrays the region finds.
-/
import proofs.«146168_j62569083568519_2_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.Reg0

open Cert.KernelIdeal Cert.KernelIdeal.Gen Idealize.ShloMosaic Idealize.ShloMosaic.ValueIdx Idealize.ShloMosaic.TcCoe Idealize.SL.Sem
open Idealize.ShloMosaic.Pipeline (Dat)

/-- On every contraction index the left operand is read in the output's row. -/
theorem mm0_l0 (i : S5000x64.Idx) (q : dot_S5000x256_S256x64_S5000x64_1_0_0_1_n_n.contr.Idx) : (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- … and in the contraction index's column. -/
theorem mm0_l1 (i : S5000x64.Idx) (q : dot_S5000x256_S256x64_S5000x64_1_0_0_1_n_n.contr.Idx) : (dot_S5000x256_S256x64_S5000x64_1_0_0_1_n_n.lhsIdx i q 1).val = (q ⟨0, by decide⟩).val :=
  dot_S5000x256_S256x64_S5000x64_1_0_0_1_n_n.lhsIdx_val_of_single rfl i q
/-- The right operand is read in the contraction index's row … -/
theorem mm0_r0 (i : S5000x64.Idx) (q : dot_S5000x256_S256x64_S5000x64_1_0_0_1_n_n.contr.Idx) : (dot_S5000x256_S256x64_S5000x64_1_0_0_1_n_n.rhsIdx i q 0).val = (q ⟨0, by decide⟩).val :=
  dot_S5000x256_S256x64_S5000x64_1_0_0_1_n_n.rhsIdx_val_of_single rfl i q
/-- … and in the output's column. -/
theorem mm0_r1 (i : S5000x64.Idx) (q : dot_S5000x256_S256x64_S5000x64_1_0_0_1_n_n.contr.Idx) : (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl
/-- The matrix product into a zero accumulator, read at row `p` and column `q`: the sum over `k` of the products. -/
theorem mm0_apply {φ₁ φ₂ : FTy} (l : FVec Ideal S5000x256 φ₁) (r : FVec Ideal S256x64 φ₂) (p : Fin 5000) (q : Fin 64) :
    matmul dot_S5000x256_S256x64_S5000x64_1_0_0_1_n_n none l r (constant S5000x64 .f32 0x00000000#32) (ix2 p q) = ∑ k : Fin 256, l (ix2 p k) * r (ix2 k q) := by
  show FloatOps.matmul dot_S5000x256_S256x64_S5000x64_1_0_0_1_n_n none l r (constant S5000x64 .f32 0x00000000#32) (ix2 p q) = _
  rw [Ideal.matmul_constant_zero_apply, ← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p q) ((contrEquiv1 dot_S5000x256_S256x64_S5000x64_1_0_0_1_n_n 256 rfl rfl).symm k) = ix2 p k := funext fun a => Fin.ext (by
    match a with
    | ⟨0, _⟩ => exact mm0_l0 _ _
    | ⟨1, _⟩ => exact (mm0_l1 _ _).trans hk)
  have er : dot_S5000x256_S256x64_S5000x64_1_0_0_1_n_n.rhsIdx (ix2 p q) ((contrEquiv1 dot_S5000x256_S256x64_S5000x64_1_0_0_1_n_n 256 rfl rfl).symm k) = ix2 k q := funext fun a => Fin.ext (by
    match a with
    | ⟨0, _⟩ => exact (mm0_r0 _ _).trans hk
    | ⟨1, _⟩ => exact mm0_r1 _ _)
  rw [el, er]

/-- A column of per-row values laid along every column of the block, read at `(p, q)`: the row's value. -/
theorem bcol_apply (v : Vec Ideal S5000x1 .f32) (p : Fin 5000) (q : Fin 64) :
    broadcastTo S5000x64 (shapeCast S5000x1 v shapeCasts_S5000x1_S5000x1) broadcasts_S5000x1_S5000x64 (ix2 p q) = v (ix2 p 0) := by
  rw [shapeCast_self]
  exact broadcastTo_apply v broadcasts_S5000x1_S5000x64 (ix2 p q) (ix2 p 0) (fun a => by
    match a with
    | ⟨0, _⟩ => rfl
    | ⟨1, _⟩ => rfl)

/-- The body's arithmetic at row `p` and column `q` of a block. -/
theorem pay_apply (x0 : Vec Ideal S5000x256 .f32) (x1 : Vec Ideal S256x64 .f32) (x2 : Vec Ideal S5000x1 .f32) (p : Fin 5000) (q : Fin 64) :
    k0_pay1 x0 x1 x2 (ix2 p q) = (∑ k : Fin 256, x0 (ix2 p k) * x1 (ix2 k q)) * x2 (ix2 p 0) := by
  unfold k0_pay1
  exact congrArg₂ (· * ·) (mm0_apply (truncf (F := Ideal) .bf16 x0 bitsLt_bf16_f32) (truncf (F := Ideal) .bf16 x1 bitsLt_bf16_f32) p q) (bcol_apply x2 p q)

section
variable (V : (c : Dev nD) → (b : Ref sig .tc) → Buf (Elt Ideal) ((c : Thread nD τ).loc b))

theorem hz : (![0, 0] : Fin 2 → Nat) = fun _ => 0 := funext fun a => by fin_cases a <;> rfl

/-- Every row of `x · W` scaled by the row's weight. -/
def rowsScaled (x : S100000x256.Idx → EReal) (w : S256x64.Idx → EReal) (d : S100000x1.Idx → EReal) : S100000x64.Idx → EReal :=
  fun i => (∑ k : Fin 256, x (ix2 (i 0 : Fin 100000) k) * w (ix2 k (i 1 : Fin 64))) * d (ix2 (i 0 : Fin 100000) (0 : Fin 1))

/-- The printed index maps over the grid: the row-tiled windows sit at block row `t`, column block 0; the weights at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- A point is one of twenty. -/
theorem point_lt (t : Fin cfg0.N) : t.val < 20 := by have h := t.isLt; have hN : cfg0.N = 20 := N_0; omega

/-- Row `p` of block `t` is row `5000 t + p` of the array. -/
def rowAt (t : Fin cfg0.N) (p : Fin 5000) : Fin 100000 := ⟨t.val * 5000 + p.val, by have := point_lt t; omega⟩

/-- Block `t` of `x` read at `(p, k)`. -/
theorem read0 (c : Dev nD) (t : Fin cfg0.N) (p : Fin 5000) (k : Fin 256) :
    iblk0 V c 0 t (ix2 p k) = V c (Pipeline.arrRef spec0 0) (ix2 (rowAt t p) k) := by
  obtain ⟨e0, e1, -, -, -, -, -, -⟩ := idx_facts t
  show V c (Pipeline.arrRef spec0 0) (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 256 + 1 * k.val = k.val; omega

/-- The one block of `W` read at `(k, q)`. -/
theorem read1 (c : Dev nD) (t : Fin cfg0.N) (k : Fin 256) (q : Fin 64) :
    iblk0 V c 1 t (ix2 k q) = V c (Pipeline.arrRef spec0 1) (ix2 k q) := by
  obtain ⟨-, -, e2, e3, -, -, -, -⟩ := idx_facts t
  show V c (Pipeline.arrRef spec0 1) (((cfg0.win 1).blk t).view.emb (ix2 k q)) = _
  refine congrArg _ (funext fun a => Fin.ext ?_)
  match a with
  | ⟨0, _⟩ => show win0_1.index t (0 : Fin 2) * 256 + 1 * k.val = k.val; omega
  | ⟨1, _⟩ => show win0_1.index t (1 : Fin 2) * 64 + 1 * q.val = q.val; omega

/-- Block `t` of the weight column read at `(p, 0)`. -/
theorem read2 (c : Dev nD) (t : Fin cfg0.N) (p : Fin 5000) :
    iblk0 V c 2 t (ix2 p (0 : Fin 1)) = V c (Pipeline.arrRef spec0 2) (ix2 (rowAt t p) (0 : Fin 1)) := by
  obtain ⟨-, -, -, -, e4, e5, -, -⟩ := idx_facts t
  show V c (Pipeline.arrRef spec0 2) (((cfg0.win 2).blk t).view.emb (ix2 p (0 : Fin 1))) = _
  refine congrArg _ (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * 0 = 0; omega

/-- Where `(p, q)` of the output's block `t` sits in the array. -/
theorem emb3 (t : Fin cfg0.N) (p : Fin 5000) (q : Fin 64) :
    ((cfg0.win 3).blk t).view.emb (ix2 p q) = ix2 (rowAt t p) q := by
  obtain ⟨-, -, -, -, -, -, e6, e7⟩ := idx_facts t
  refine funext fun a => Fin.ext ?_
  match a with
  | ⟨0, _⟩ => show win0_3.index t (0 : Fin 2) * 5000 + 1 * p.val = t.val * 5000 + p.val; omega
  | ⟨1, _⟩ => show win0_3.index t (1 : Fin 2) * 64 + 1 * q.val = q.val; omega

/-- What point `t` writes back is block `t` of the scaled rows of the arrays the region finds. -/
theorem flushed_eq (c : Dev nD) (t : Fin cfg0.N) :
    (dat0 V c).flushed 3 t = ((cfg0.win 3).blk t).view.read (Elt Ideal)
      (rowsScaled (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x64) hz, View.ld_unit_zero (S := S5000x1) hz]
  funext j
  obtain ⟨p, q, rfl⟩ : ∃ (p : Fin 5000) (q : Fin 64), j = ix2 p q := ⟨j 0, j 1, eq_ix2 j⟩
  show k0_pay1 (iblk0 V c 0 t) (iblk0 V c 1 t) (iblk0 V c 2 t) (ix2 p q)
    = rowsScaled (V c (Pipeline.arrRef spec0 0)) (V c (Pipeline.arrRef spec0 1)) (V c (Pipeline.arrRef spec0 2)) (((cfg0.win 3).blk t).view.emb (ix2 p q))
  rw [emb3]
  refine (pay_apply _ _ _ p q).trans ?_
  rw [read2]
  unfold rowsScaled
  refine congrArg₂ (· * ·) (Finset.sum_congr rfl fun k _ => ?_) rfl
  rw [read0, read1]

/-- An index of the array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v16).slice (win0_3.rect t)).set ↔ _
  rw [View.set_slice_whole, Rect.mem_set_unit]
  exact Iff.rfl

/-- Row `r` of the array is in the block of point `r / 5000`. -/
theorem cover (i : S100000x64.Idx) : ∃ t : Fin cfg0.N, (cfg0.win 3).flush t = true ∧ i ∈ ((cfg0.win 3).blk t).view.set := by
  have hi0 : (i 0).val < 100000 := idx2_lt0 i
  have hi1 : (i 1).val < 64 := idx2_lt1 i
  have hN : cfg0.N = 20 := N_0
  let t : Fin cfg0.N := ⟨(i 0).val / 5000, by omega⟩
  obtain ⟨-, -, -, -, -, -, e6, e7⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The region's output array after the region: the scaled rows of the arrays it finds. -/
theorem arr0 (c : Dev nD) : (dat0 V c).arrAt 3 cfg0.N
    = rowsScaled (V c (Pipeline.arrRef spec0 0)) (V c (Pipeline.arrRef spec0 1)) (V c (Pipeline.arrRef spec0 2)) :=
  (dat0 V c).arrAt_eq_of_cover 3 _ (fun t _ => flushed_eq V c t) cover
end

end Cert.KernelIdeal.Reg0

end
-- ==== Proof.Reg1.lean ====
/-
  What the second kernel region leaves in its output array.  Block `t` of the output is rows `5000 t … 5000 t + 4999`; from
  rows `5000 t …` of the summed rows `a` and of the weight column `w`, the whole bias row `b` and the whole matrix `W`, the body
  computes `(∑ k, max (a[r, k] · w[r] + b[k]) 0 · W[k, c]) · w[r]` at every `(r, c)` of the block; the twenty blocks tile the array,
  so the array ends holding that function of the arrays the region finds.
-/
import proofs.«146168_j62569083568519_2_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.Reg1

open Cert.KernelIdeal Cert.KernelIdeal.Gen Idealize.ShloMosaic Idealize.ShloMosaic.ValueIdx Idealize.ShloMosaic.TcCoe Idealize.SL.Sem
open Idealize.ShloMosaic.Pipeline (Dat)

/-- On every contraction index the left operand is read in the output's row. -/
theorem mm1_l0 (i : S5000x32.Idx) (q : dot_S5000x64_S64x32_S5000x32_1_0_0_1_n_n.contr.Idx) : (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
/-- … and in the contraction index's column. -/
theorem mm1_l1 (i : S5000x32.Idx) (q : dot_S5000x64_S64x32_S5000x32_1_0_0_1_n_n.contr.Idx) : (dot_S5000x64_S64x32_S5000x32_1_0_0_1_n_n.lhsIdx i q 1).val = (q ⟨0, by decide⟩).val :=
  dot_S5000x64_S64x32_S5000x32_1_0_0_1_n_n.lhsIdx_val_of_single rfl i q
/-- The right operand is read in the contraction index's row … -/
theorem mm1_r0 (i : S5000x32.Idx) (q : dot_S5000x64_S64x32_S5000x32_1_0_0_1_n_n.contr.Idx) : (dot_S5000x64_S64x32_S5000x32_1_0_0_1_n_n.rhsIdx i q 0).val = (q ⟨0, by decide⟩).val :=
  dot_S5000x64_S64x32_S5000x32_1_0_0_1_n_n.rhsIdx_val_of_single rfl i q
/-- … and in the output's column. -/
theorem mm1_r1 (i : S5000x32.Idx) (q : dot_S5000x64_S64x32_S5000x32_1_0_0_1_n_n.contr.Idx) : (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl
/-- The matrix product into a zero accumulator, read at row `p` and column `q`: the sum over `k` of the products. -/
theorem mm1_apply {φ₁ φ₂ : FTy} (l : FVec Ideal S5000x64 φ₁) (r : FVec Ideal S64x32 φ₂) (p : Fin 5000) (q : Fin 32) :
    matmul dot_S5000x64_S64x32_S5000x32_1_0_0_1_n_n none l r (constant S5000x32 .f32 0x00000000#32) (ix2 p q) = ∑ k : Fin 64, l (ix2 p k) * r (ix2 k q) := by
  show FloatOps.matmul dot_S5000x64_S64x32_S5000x32_1_0_0_1_n_n none l r (constant S5000x32 .f32 0x00000000#32) (ix2 p q) = _
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k := funext fun a => Fin.ext (by
    match a with
    | ⟨0, _⟩ => exact mm1_l0 _ _
    | ⟨1, _⟩ => exact (mm1_l1 _ _).trans hk)
  have er : dot_S5000x64_S64x32_S5000x32_1_0_0_1_n_n.rhsIdx (ix2 p q) ((contrEquiv1 dot_S5000x64_S64x32_S5000x32_1_0_0_1_n_n 64 rfl rfl).symm k) = ix2 k q := funext fun a => Fin.ext (by
    match a with
    | ⟨0, _⟩ => exact (mm1_r0 _ _).trans hk
    | ⟨1, _⟩ => exact mm1_r1 _ _)
  rw [el, er]

/-- A column of per-row values laid along the 64 columns of a block, read at `(p, q)`: the row's value. -/
theorem bcol64_apply (v : Vec Ideal S5000x1 .f32) (p : Fin 5000) (q : Fin 64) :
    broadcastTo S5000x64 (shapeCast S5000x1 v shapeCasts_S5000x1_S5000x1) broadcasts_S5000x1_S5000x64 (ix2 p q) = v (ix2 p 0) := by
  rw [shapeCast_self]
  exact broadcastTo_apply v broadcasts_S5000x1_S5000x64 (ix2 p q) (ix2 p 0) (fun a => by
    match a with
    | ⟨0, _⟩ => rfl
    | ⟨1, _⟩ => rfl)

/-- The same along the 32 columns of an output block. -/
theorem bcol32_apply (v : Vec Ideal S5000x1 .f32) (p : Fin 5000) (q : Fin 32) :
    broadcastTo S5000x32 (shapeCast S5000x1 v shapeCasts_S5000x1_S5000x1) broadcasts_S5000x1_S5000x32 (ix2 p q) = v (ix2 p 0) := by
  rw [shapeCast_self]
  exact broadcastTo_apply v broadcasts_S5000x1_S5000x32 (ix2 p q) (ix2 p 0) (fun a => by
    match a with
    | ⟨0, _⟩ => rfl
    | ⟨1, _⟩ => rfl)

/-- A row of per-column values laid along every row of a block, read at `(p, q)`: the column's value. -/
theorem brow_apply (v : Vec Ideal S1x64 .f32) (p : Fin 5000) (q : Fin 64) :
    broadcastTo S5000x64 (shapeCast S1x64 v shapeCasts_S1x64_S1x64) broadcasts_S1x64_S5000x64 (ix2 p q) = v (ix2 0 q) := by
  rw [shapeCast_self]
  exact broadcastTo_apply v broadcasts_S1x64_S5000x64 (ix2 p q) (ix2 0 q) (fun a => by
    match a with
    | ⟨0, _⟩ => rfl
    | ⟨1, _⟩ => rfl)

/-- The body's arithmetic at row `p` and column `q` of a block. -/
theorem pay_apply (x0 : Vec Ideal S5000x64 .f32) (x1 : Vec Ideal S5000x1 .f32) (x2 : Vec Ideal S1x64 .f32) (x3 : Vec Ideal S64x32 .f32)
    (p : Fin 5000) (q : Fin 32) :
    k1_pay1 x0 x1 x2 x3 x1 (ix2 p q)
      = (∑ k : Fin 64, max (x0 (ix2 p k) * x1 (ix2 p 0) + x2 (ix2 0 k)) 0 * x3 (ix2 k q)) * x1 (ix2 p 0) := by
  unfold k1_pay1
  refine congrArg₂ (· * ·) ((mm1_apply _ _ p q).trans (Finset.sum_congr rfl fun k _ => congrArg₂ (· * ·) ?_ rfl)) (bcol32_apply x1 p q)
  exact congrArg₂ max (congrArg₂ (· + ·) (congrArg₂ (· * ·) (congrFun (shapeCast_self x0 shapeCasts_S5000x64_S5000x64) (ix2 p k)) (bcol64_apply x1 p k)) (brow_apply x2 p k)) Ideal.ofBits_zero_f32

section
variable (V : (c : Dev nD) → (b : Ref sig .tc) → Buf (Elt Ideal) ((c : Thread nD τ).loc b))

theorem hz : (![0, 0] : Fin 2 → Nat) = fun _ => 0 := funext fun a => by fin_cases a <;> rfl

/-- What the region leaves at row `i 0` and column `i 1`, from the summed rows `a`, the weight column `w`, the bias row `b` and the
    matrix `W`. -/
def G1 (a : S100000x64.Idx → EReal) (w : S100000x1.Idx → EReal) (b : S1x64.Idx → EReal) (W : S64x32.Idx → EReal) :
    S100000x32.Idx → EReal :=
  fun i => (∑ k : Fin 64, max (a (ix2 (i 0 : Fin 100000) k) * w (ix2 (i 0 : Fin 100000) (0 : Fin 1)) + b (ix2 (0 : Fin 1) k)) 0
      * W (ix2 k (i 1 : Fin 32))) * w (ix2 (i 0 : Fin 100000) (0 : Fin 1))

/-- The printed index maps over the twenty points: the row-tiled windows are at block `(t, 0)`, the whole ones at `(0, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A point is one of twenty. -/
theorem point_lt (t : Fin cfg1.N) : t.val < 20 := by have h := t.isLt; have hN : cfg1.N = 20 := N_1; omega

/-- Row `p` of block `t` is row `5000 t + p` of the array. -/
def rowAt (t : Fin cfg1.N) (p : Fin 5000) : Fin 100000 := ⟨t.val * 5000 + p.val, by have := point_lt t; omega⟩

/-- Block `t` of the summed rows read at `(p, k)`. -/
theorem read0 (c : Dev nD) (t : Fin cfg1.N) (p : Fin 5000) (k : Fin 64) :
    iblk1 V c 0 t (ix2 p k) = V c (Pipeline.arrRef spec1 0) (ix2 (rowAt t p) k) := by
  obtain ⟨e0, e1, -⟩ := idx_facts t
  show V c (Pipeline.arrRef spec1 0) (((cfg1.win 0).blk t).view.emb (ix2 p k)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * k.val = k.val; omega

/-- Block `t` of the weight column read at `(p, 0)`. -/
theorem read1 (c : Dev nD) (t : Fin cfg1.N) (p : Fin 5000) :
    iblk1 V c 1 t (ix2 p (0 : Fin 1)) = V c (Pipeline.arrRef spec1 1) (ix2 (rowAt t p) (0 : Fin 1)) := by
  obtain ⟨-, -, e0, e1, -⟩ := idx_facts t
  show V c (Pipeline.arrRef spec1 1) (((cfg1.win 1).blk t).view.emb (ix2 p (0 : Fin 1))) = _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 1 + 1 * 0 = 0; omega

/-- The one block of the bias row read at `(0, k)`. -/
theorem read2 (c : Dev nD) (t : Fin cfg1.N) (k : Fin 64) :
    iblk1 V c 2 t (ix2 (0 : Fin 1) k) = V c (Pipeline.arrRef spec1 2) (ix2 (0 : Fin 1) k) := by
  obtain ⟨-, -, -, -, e0, e1, -⟩ := idx_facts t
  show V c (Pipeline.arrRef spec1 2) (((cfg1.win 2).blk t).view.emb (ix2 (0 : Fin 1) k)) = _
  refine congrArg _ (funext fun a => Fin.ext ?_)
  match a with
  | ⟨0, _⟩ => show win1_2.index t (0 : Fin 2) * 1 + 1 * 0 = 0; omega
  | ⟨1, _⟩ => show win1_2.index t (1 : Fin 2) * 64 + 1 * k.val = k.val; omega

/-- The one block of the matrix read at `(k, q)`. -/
theorem read3 (c : Dev nD) (t : Fin cfg1.N) (k : Fin 64) (q : Fin 32) :
    iblk1 V c 3 t (ix2 k q) = V c (Pipeline.arrRef spec1 3) (ix2 k q) := by
  obtain ⟨-, -, -, -, -, -, e0, e1, -⟩ := idx_facts t
  show V c (Pipeline.arrRef spec1 3) (((cfg1.win 3).blk t).view.emb (ix2 k q)) = _
  refine congrArg _ (funext fun a => Fin.ext ?_)
  match a with
  | ⟨0, _⟩ => show win1_3.index t (0 : Fin 2) * 64 + 1 * k.val = k.val; omega
  | ⟨1, _⟩ => show win1_3.index t (1 : Fin 2) * 32 + 1 * q.val = q.val; omega

/-- Where `(p, q)` of the output's block `t` sits in the array. -/
theorem emb4 (t : Fin cfg1.N) (p : Fin 5000) (q : Fin 32) :
    ((cfg1.win 4).blk t).view.emb (ix2 p q) = ix2 (rowAt t p) q := by
  obtain ⟨-, -, -, -, -, -, -, -, e0, e1⟩ := idx_facts t
  refine funext fun a => Fin.ext ?_
  match a with
  | ⟨0, _⟩ => show win1_4.index t (0 : Fin 2) * 5000 + 1 * p.val = t.val * 5000 + p.val; omega
  | ⟨1, _⟩ => show win1_4.index t (1 : Fin 2) * 32 + 1 * q.val = q.val; omega

/-- What point `t` writes back is block `t` of `G1` of the arrays the region finds. -/
theorem flushed_eq (c : Dev nD) (t : Fin cfg1.N) :
    (dat1 V c).flushed 4 t = ((cfg1.win 4).blk t).view.read (Elt Ideal)
      (G1 (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S1x64) hz, View.ld_unit_zero (S := S64x32) hz]
  funext j
  obtain ⟨p, q, rfl⟩ : ∃ (p : Fin 5000) (q : Fin 32), j = ix2 p q := ⟨j 0, j 1, eq_ix2 j⟩
  show k1_pay1 (iblk1 V c 0 t) (iblk1 V c 1 t) (iblk1 V c 2 t) (iblk1 V c 3 t) (iblk1 V c 1 t) (ix2 p q)
    = G1 (V c (Pipeline.arrRef spec1 0)) (V c (Pipeline.arrRef spec1 1)) (V c (Pipeline.arrRef spec1 2)) (V c (Pipeline.arrRef spec1 3))
        (((cfg1.win 4).blk t).view.emb (ix2 p q))
  rw [emb4]
  refine (pay_apply _ _ _ _ p q).trans ?_
  rw [read1]
  unfold G1
  refine congrArg₂ (· * ·) (Finset.sum_congr rfl fun k _ => ?_) rfl
  rw [read0, read2, read3]

/-- An index of the array is in point `t`'s block iff each coordinate is in the block's range on its axis. -/
theorem mem_blk (t : Fin cfg1.N) (i : S100000x32.Idx) :
    i ∈ ((cfg1.win 4).blk t).view.set ↔ ∀ a : Fin 2, win1_4.index t a * S5000x32.size a ≤ (i a).val ∧ (i a).val < win1_4.index t a * S5000x32.size a + S5000x32.size a := by
  show i ∈ ((View.whole main_v29).slice (win1_4.rect t)).set ↔ _
  rw [View.set_slice_whole, Rect.mem_set_unit]
  exact Iff.rfl

/-- Row `r` of the array is in the block of point `r / 5000`. -/
theorem cover (i : S100000x32.Idx) : ∃ t : Fin cfg1.N, (cfg1.win 4).flush t = true ∧ i ∈ ((cfg1.win 4).blk t).view.set := by
  have hi0 : (i 0).val < 100000 := idx2_lt0 i
  have hi1 : (i 1).val < 32 := idx2_lt1 i
  have hN : cfg1.N = 20 := N_1
  let t : Fin cfg1.N := ⟨(i 0).val / 5000, by omega⟩
  obtain ⟨-, -, -, -, -, -, -, -, e0, e1⟩ := idx_facts t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 32 ≤ (i 1).val ∧ (i 1).val < win1_4.index t (1 : Fin 2) * 32 + 32; omega

/-- The region's output array after the region, as one function of the arrays it finds. -/
theorem arr1G (c : Dev nD) : (dat1 V c).arrAt 4 cfg1.N
    = G1 (V c (Pipeline.arrRef spec1 0)) (V c (Pipeline.arrRef spec1 1)) (V c (Pipeline.arrRef spec1 2)) (V c (Pipeline.arrRef spec1 3)) :=
  (dat1 V c).arrAt_eq_of_cover 4 _ (fun t _ => flushed_eq V c t) cover

/-- The same, written out index by index: `a` the summed rows, `w` the weight column, `b` the bias row, `W` the matrix, as the region finds them. -/
theorem arr1 (c : Dev nD) :
    let a : S100000x64.Idx → EReal := V c (Pipeline.arrRef spec1 0)
    let w : S100000x1.Idx → EReal := V c (Pipeline.arrRef spec1 1)
    let b : S1x64.Idx → EReal := V c (Pipeline.arrRef spec1 2)
    let W : S64x32.Idx → EReal := V c (Pipeline.arrRef spec1 3)
    (dat1 V c).arrAt 4 cfg1.N = fun i : S100000x32.Idx =>
      (∑ k : Fin 64, max (a (ix2 (i 0 : Fin 100000) k) * w (ix2 (i 0 : Fin 100000) (0 : Fin 1)) + b (ix2 (0 : Fin 1) k)) 0
        * W (ix2 k (i 1 : Fin 32))) * w (ix2 (i 0 : Fin 100000) (0 : Fin 1)) := by
  intro a w b W
  exact arr1G V c
end

end Cert.KernelIdeal.Reg1

end
-- ==== Proof.Reg2.lean ====
/-
  What the last kernel region leaves in its output array: the read-out of every node. Block `t` of the output is rows
  `5000 t … 5000 t + 4999` of a one-column array; the body computes, from rows `5000 t …` of the summed features `h` and of the
  weight column `d`, the whole bias row `b`, the whole read-out weights `w` and the one last bias `β`, the value
  `logistic ((∑ k, max (h[r, k] · d[r] + b[k]) 0 · w[k, 0]) + β)` at every row `r` of the block; the twenty blocks tile the
  array, so the array ends holding that function of the arrays the region finds.
-/
import proofs.«146168_j62569083568519_2_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.Reg2

open Cert.KernelIdeal Cert.KernelIdeal.Gen Idealize.ShloMosaic Idealize.ShloMosaic.ValueIdx Idealize.ShloMosaic.TcCoe Idealize.SL.Sem
open Idealize.ShloMosaic.Pipeline (Dat)

/-! ## The body's arithmetic at an index -/

/-- On every contraction index the left operand is read in the output's row. -/
theorem mm2_l0 (i : S5000x1.Idx) (q : dot_S5000x32_S32x1_S5000x1_1_0_0_1_n_n.contr.Idx) : (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
/-- … and in the contraction index's column. -/
theorem mm2_l1 (i : S5000x1.Idx) (q : dot_S5000x32_S32x1_S5000x1_1_0_0_1_n_n.contr.Idx) : (dot_S5000x32_S32x1_S5000x1_1_0_0_1_n_n.lhsIdx i q 1).val = (q ⟨0, by decide⟩).val :=
  dot_S5000x32_S32x1_S5000x1_1_0_0_1_n_n.lhsIdx_val_of_single rfl i q
/-- The right operand is read in the contraction index's row … -/
theorem mm2_r0 (i : S5000x1.Idx) (q : dot_S5000x32_S32x1_S5000x1_1_0_0_1_n_n.contr.Idx) : (dot_S5000x32_S32x1_S5000x1_1_0_0_1_n_n.rhsIdx i q 0).val = (q ⟨0, by decide⟩).val :=
  dot_S5000x32_S32x1_S5000x1_1_0_0_1_n_n.rhsIdx_val_of_single rfl i q
/-- … and in the output's column. -/
theorem mm2_r1 (i : S5000x1.Idx) (q : dot_S5000x32_S32x1_S5000x1_1_0_0_1_n_n.contr.Idx) : (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl
/-- The matrix product into a zero accumulator, read at row `p` and column `q`: the sum over `k` of the products. -/
theorem mm2_apply {φ₁ φ₂ : FTy} (l : FVec Ideal S5000x32 φ₁) (r : FVec Ideal S32x1 φ₂) (p : Fin 5000) (q : Fin 1) :
    matmul dot_S5000x32_S32x1_S5000x1_1_0_0_1_n_n none l r (constant S5000x1 .f32 0x00000000#32) (ix2 p q) = ∑ k : Fin 32, l (ix2 p k) * r (ix2 k q) := by
  show FloatOps.matmul dot_S5000x32_S32x1_S5000x1_1_0_0_1_n_n none l r (constant S5000x1 .f32 0x00000000#32) (ix2 p q) = _
  rw [Ideal.matmul_constant_zero_apply, ← Equiv.sum_comp (contrEquiv1 dot_S5000x32_S32x1_S5000x1_1_0_0_1_n_n 32 rfl rfl).symm]
  refine Finset.sum_congr rfl fun k _ => ?_
  have hk := contrEquiv1_symm_val dot_S5000x32_S32x1_S5000x1_1_0_0_1_n_n 32 rfl rfl k
  have el : dot_S5000x32_S32x1_S5000x1_1_0_0_1_n_n.lhsIdx (ix2 p q) ((contrEquiv1 dot_S5000x32_S32x1_S5000x1_1_0_0_1_n_n 32 rfl rfl).symm k) = ix2 p k := funext fun a => Fin.ext (by
    match a with
    | ⟨0, _⟩ => exact mm2_l0 _ _
    | ⟨1, _⟩ => exact (mm2_l1 _ _).trans hk)
  have er : dot_S5000x32_S32x1_S5000x1_1_0_0_1_n_n.rhsIdx (ix2 p q) ((contrEquiv1 dot_S5000x32_S32x1_S5000x1_1_0_0_1_n_n 32 rfl rfl).symm k) = ix2 k q := funext fun a => Fin.ext (by
    match a with
    | ⟨0, _⟩ => exact (mm2_r0 _ _).trans hk
    | ⟨1, _⟩ => exact mm2_r1 _ _)
  rw [el, er]

/-- A column of per-row values laid along every column of the block, read at `(p, k)`: the row's value. -/
theorem bcol_apply (v : Vec Ideal S5000x1 .f32) (p : Fin 5000) (k : Fin 32) :
    broadcastTo S5000x32 (shapeCast S5000x1 v shapeCasts_S5000x1_S5000x1) broadcasts_S5000x1_S5000x32 (ix2 p k) = v (ix2 p (0 : Fin 1)) := by
  rw [shapeCast_self]
  exact broadcastTo_apply v broadcasts_S5000x1_S5000x32 (ix2 p k) (ix2 p (0 : Fin 1)) (fun a => by
    match a with
    | ⟨0, _⟩ => rfl
    | ⟨1, _⟩ => rfl)

/-- A row of per-column values laid along every row of the block, read at `(p, k)`: the column's value. -/
theorem brow_apply (v : Vec Ideal S1x32 .f32) (p : Fin 5000) (k : Fin 32) :
    broadcastTo S5000x32 (shapeCast S1x32 v shapeCasts_S1x32_S1x32) broadcasts_S1x32_S5000x32 (ix2 p k) = v (ix2 (0 : Fin 1) k) := by
  rw [shapeCast_self]
  exact broadcastTo_apply v broadcasts_S1x32_S5000x32 (ix2 p k) (ix2 (0 : Fin 1) k) (fun a => by
    match a with
    | ⟨0, _⟩ => rfl
    | ⟨1, _⟩ => rfl)

/-- One value laid along the whole one-column block, read at `(p, q)`: that value. -/
theorem bone_apply (v : Vec Ideal S1x1 .f32) (p : Fin 5000) (q : Fin 1) :
    broadcastTo S5000x1 (shapeCast S1x1 v shapeCasts_S1x1_S1x1) broadcasts_S1x1_S5000x1 (ix2 p q) = v (ix2 (0 : Fin 1) (0 : Fin 1)) := by
  rw [shapeCast_self]
  exact broadcastTo_apply v broadcasts_S1x1_S5000x1 (ix2 p q) (ix2 (0 : Fin 1) (0 : Fin 1)) (fun a => by
    match a with
    | ⟨0, _⟩ => rfl
    | ⟨1, _⟩ => rfl)

/-- The body's arithmetic at row `p` (and the one column `q`) of a block. -/
theorem pay_apply (x0 : Vec Ideal S5000x32 .f32) (x1 : Vec Ideal S5000x1 .f32) (x2 : Vec Ideal S1x32 .f32) (x3 : Vec Ideal S32x1 .f32)
    (x4 : Vec Ideal S1x1 .f32) (p : Fin 5000) (q : Fin 1) :
    k2_pay1 x0 x1 x2 x3 x4 (ix2 p q)
      = Ideal.logistic ((∑ k : Fin 32, max (x0 (ix2 p k) * x1 (ix2 p (0 : Fin 1)) + x2 (ix2 (0 : Fin 1) k)) 0 * x3 (ix2 k q))
          + x4 (ix2 (0 : Fin 1) (0 : Fin 1))) := by
  unfold k2_pay1
  refine congrArg Ideal.logistic (congrArg₂ (· + ·) ((mm2_apply _ _ p q).trans (Finset.sum_congr rfl fun k _ => ?_)) (bone_apply x4 p q))
  refine congrArg₂ (· * ·) ?_ rfl
  exact congrArg₂ max (congrArg₂ (· + ·) (congrArg₂ (· * ·) (congrFun (shapeCast_self x0 shapeCasts_S5000x32_S5000x32) (ix2 p k)) (bcol_apply x1 p k)) (brow_apply x2 p k))
    Ideal.ofBits_zero_f32

section
variable (V : (c : Dev nD) → (b : Ref sig .tc) → Buf (Elt Ideal) ((c : Thread nD τ).loc b))

theorem hz : (![0, 0] : Fin 2 → Nat) = fun _ => 0 := funext fun a => by fin_cases a <;> rfl

/-- The read-out of every node: the summed features `a` scaled by the node's weight `w`, plus the bias row `b`, clipped
    below at zero, times the read-out weights `W`, plus the last bias `fb`, through the logistic. -/
def G2 (a : S100000x32.Idx → EReal) (w : S100000x1.Idx → EReal) (b : S1x32.Idx → EReal) (W : S32x1.Idx → EReal)
    (fb : S1x1.Idx → EReal) : S100000x1.Idx → EReal :=
  fun i => Ideal.logistic ((∑ k : Fin 32, max (a (ix2 (i 0 : Fin 100000) k) * w (ix2 (i 0 : Fin 100000) (0 : Fin 1)) + b (ix2 (0 : Fin 1) k)) 0
      * W (ix2 k (i 1 : Fin 1))) + fb (ix2 (0 : Fin 1) (0 : Fin 1)))

/-- The printed index maps over the grid: the row-tiled windows (the summed features, the weight column, the output) sit at
    block row `t`, column block 0; the whole windows (the bias row, the read-out weights, the last bias) at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A point is one of twenty. -/
theorem point_lt (t : Fin cfg2.N) : t.val < 20 := by have h := t.isLt; have hN : cfg2.N = 20 := N_2; omega

/-- Row `p` of block `t` is row `5000 t + p` of the array. -/
def rowAt (t : Fin cfg2.N) (p : Fin 5000) : Fin 100000 := ⟨t.val * 5000 + p.val, by have := point_lt t; omega⟩

/-- Block `t` of the summed features read at `(p, k)`. -/
theorem read0 (c : Dev nD) (t : Fin cfg2.N) (p : Fin 5000) (k : Fin 32) :
    iblk2 V c 0 t (ix2 p k) = V c (Pipeline.arrRef spec2 0) (ix2 (rowAt t p) k) := by
  obtain ⟨e0, e1, -, -, -, -, -, -, -, -, -, -⟩ := idx_facts t
  show V c (Pipeline.arrRef spec2 0) (((cfg2.win 0).blk t).view.emb (ix2 p k)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 32 + 1 * k.val = k.val; omega

/-- Block `t` of the weight column read at `(p, 0)`. -/
theorem read1 (c : Dev nD) (t : Fin cfg2.N) (p : Fin 5000) :
    iblk2 V c 1 t (ix2 p (0 : Fin 1)) = V c (Pipeline.arrRef spec2 1) (ix2 (rowAt t p) (0 : Fin 1)) := by
  obtain ⟨-, -, e2, e3, -, -, -, -, -, -, -, -⟩ := idx_facts t
  show V c (Pipeline.arrRef spec2 1) (((cfg2.win 1).blk t).view.emb (ix2 p (0 : Fin 1))) = _
  refine congrArg _ (funext fun a => Fin.ext ?_)
  match a with
  | ⟨0, _⟩ => show win2_1.index t (0 : Fin 2) * 5000 + 1 * p.val = t.val * 5000 + p.val; omega
  | ⟨1, _⟩ => show win2_1.index t (1 : Fin 2) * 1 + 1 * 0 = 0; omega

/-- The one block of the bias row read at `(0, k)`. -/
theorem read2 (c : Dev nD) (t : Fin cfg2.N) (k : Fin 32) :
    iblk2 V c 2 t (ix2 (0 : Fin 1) k) = V c (Pipeline.arrRef spec2 2) (ix2 (0 : Fin 1) k) := by
  obtain ⟨-, -, -, -, e4, e5, -, -, -, -, -, -⟩ := idx_facts t
  show V c (Pipeline.arrRef spec2 2) (((cfg2.win 2).blk t).view.emb (ix2 (0 : Fin 1) k)) = _
  refine congrArg _ (funext fun a => Fin.ext ?_)
  match a with
  | ⟨0, _⟩ => show win2_2.index t (0 : Fin 2) * 1 + 1 * 0 = 0; omega
  | ⟨1, _⟩ => show win2_2.index t (1 : Fin 2) * 32 + 1 * k.val = k.val; omega

/-- The one block of the read-out weights read at `(k, q)`. -/
theorem read3 (c : Dev nD) (t : Fin cfg2.N) (k : Fin 32) (q : Fin 1) :
    iblk2 V c 3 t (ix2 k q) = V c (Pipeline.arrRef spec2 3) (ix2 k q) := by
  obtain ⟨-, -, -, -, -, -, e6, e7, -, -, -, -⟩ := idx_facts t
  show V c (Pipeline.arrRef spec2 3) (((cfg2.win 3).blk t).view.emb (ix2 k q)) = _
  refine congrArg _ (funext fun a => Fin.ext ?_)
  match a with
  | ⟨0, _⟩ => show win2_3.index t (0 : Fin 2) * 32 + 1 * k.val = k.val; omega
  | ⟨1, _⟩ => show win2_3.index t (1 : Fin 2) * 1 + 1 * q.val = q.val; omega

/-- The one block of the last bias read at `(0, 0)`. -/
theorem read4 (c : Dev nD) (t : Fin cfg2.N) :
    iblk2 V c 4 t (ix2 (0 : Fin 1) (0 : Fin 1)) = V c (Pipeline.arrRef spec2 4) (ix2 (0 : Fin 1) (0 : Fin 1)) := by
  obtain ⟨-, -, -, -, -, -, -, -, e8, e9, -, -⟩ := idx_facts t
  show V c (Pipeline.arrRef spec2 4) (((cfg2.win 4).blk t).view.emb (ix2 (0 : Fin 1) (0 : Fin 1))) = _
  refine congrArg _ (funext fun a => Fin.ext ?_)
  match a with
  | ⟨0, _⟩ => show win2_4.index t (0 : Fin 2) * 1 + 1 * 0 = 0; omega
  | ⟨1, _⟩ => show win2_4.index t (1 : Fin 2) * 1 + 1 * 0 = 0; omega

/-- Where `(p, q)` of the output's block `t` sits in the array. -/
theorem emb5 (t : Fin cfg2.N) (p : Fin 5000) (q : Fin 1) :
    ((cfg2.win 5).blk t).view.emb (ix2 p q) = ix2 (rowAt t p) q := by
  obtain ⟨-, -, -, -, -, -, -, -, -, -, e10, e11⟩ := idx_facts t
  refine funext fun a => Fin.ext ?_
  match a with
  | ⟨0, _⟩ => show win2_5.index t (0 : Fin 2) * 5000 + 1 * p.val = t.val * 5000 + p.val; omega
  | ⟨1, _⟩ => show win2_5.index t (1 : Fin 2) * 1 + 1 * q.val = q.val; omega

/-- What point `t` writes back is block `t` of the read-out of the arrays the region finds. -/
theorem flushed_eq (c : Dev nD) (t : Fin cfg2.N) :
    (dat2 V c).flushed 5 t = ((cfg2.win 5).blk t).view.read (Elt Ideal)
      (G2 (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero hz]
  simp only [View.ld_unit_zero (S := S5000x32) hz, View.ld_unit_zero (S := S5000x1) hz, View.ld_unit_zero (S := S1x32) hz,
    View.ld_unit_zero (S := S32x1) hz, View.ld_unit_zero (S := S1x1) hz]
  funext j
  obtain ⟨p, q, rfl⟩ : ∃ (p : Fin 5000) (q : Fin 1), j = ix2 p q := ⟨j 0, j 1, eq_ix2 j⟩
  show k2_pay1 (iblk2 V c 0 t) (iblk2 V c 1 t) (iblk2 V c 2 t) (iblk2 V c 3 t) (iblk2 V c 4 t) (ix2 p q)
    = G2 (V c (Pipeline.arrRef spec2 0)) (V c (Pipeline.arrRef spec2 1)) (V c (Pipeline.arrRef spec2 2))
        (V c (Pipeline.arrRef spec2 3)) (V c (Pipeline.arrRef spec2 4)) (((cfg2.win 5).blk t).view.emb (ix2 p q))
  rw [emb5]
  refine (pay_apply _ _ _ _ _ p q).trans ?_
  rw [read4]
  unfold G2
  refine congrArg Ideal.logistic (congrArg₂ (· + ·) (Finset.sum_congr rfl fun k _ => ?_) rfl)
  rw [read0, read1, read2, read3]

/-- An index of the array is in point `t`'s block iff each coordinate is in the block's range on its axis. -/
theorem mem_blk (t : Fin cfg2.N) (i : S100000x1.Idx) :
    i ∈ ((cfg2.win 5).blk t).view.set ↔ ∀ a : Fin 2, win2_5.index t a * S5000x1.size a ≤ (i a).val ∧ (i a).val < win2_5.index t a * S5000x1.size a + S5000x1.size a := by
  show i ∈ ((View.whole main_v43).slice (win2_5.rect t)).set ↔ _
  rw [View.set_slice_whole, Rect.mem_set_unit]
  exact Iff.rfl

/-- Row `r` of the array is in the block of point `r / 5000`. -/
theorem cover (i : S100000x1.Idx) : ∃ t : Fin cfg2.N, (cfg2.win 5).flush t = true ∧ i ∈ ((cfg2.win 5).blk t).view.set := by
  have hi0 : (i 0).val < 100000 := idx2_lt0 i
  have hi1 : (i 1).val < 1 := idx2_lt1 i
  have hN : cfg2.N = 20 := N_2
  let t : Fin cfg2.N := ⟨(i 0).val / 5000, by omega⟩
  obtain ⟨-, -, -, -, -, -, -, -, -, -, e10, e11⟩ := idx_facts t
  have ht : t.val = (i 0).val / 5000 := rfl
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 1 ≤ (i 1).val ∧ (i 1).val < win2_5.index t (1 : Fin 2) * 1 + 1; omega

/-- The region's output array after the region: the read-out of the arrays it finds. -/
theorem arr2G (c : Dev nD) : (dat2 V c).arrAt 5 cfg2.N
    = G2 (V c (Pipeline.arrRef spec2 0)) (V c (Pipeline.arrRef spec2 1)) (V c (Pipeline.arrRef spec2 2))
        (V c (Pipeline.arrRef spec2 3)) (V c (Pipeline.arrRef spec2 4)) :=
  (dat2 V c).arrAt_eq_of_cover 5 _ (fun t _ => flushed_eq V c t) cover

/-- The same, index by index: entry `i` is the logistic of the clipped, scaled and biased features of node `i 0` against
    the read-out weights, plus the last bias. -/
theorem arr2 (c : Dev nD) : (dat2 (F := Ideal) V c).arrAt 5 cfg2.N =
    let h : S100000x32.Idx → EReal := V c (Pipeline.arrRef spec2 0)
    let d : S100000x1.Idx → EReal := V c (Pipeline.arrRef spec2 1)
    let b : S1x32.Idx → EReal := V c (Pipeline.arrRef spec2 2)
    let w : S32x1.Idx → EReal := V c (Pipeline.arrRef spec2 3)
    let β : S1x1.Idx → EReal := V c (Pipeline.arrRef spec2 4)
    fun i : S100000x1.Idx =>
      Ideal.logistic ((∑ k : Fin 32, max (h (ix2 (i 0 : Fin 100000) k) * d (ix2 (i 0 : Fin 100000) (0 : Fin 1)) + b (ix2 (0 : Fin 1) k)) 0
        * w (ix2 k (i 1 : Fin 1))) + β (ix2 (0 : Fin 1) (0 : Fin 1))) :=
  arr2G V c
end

end Cert.KernelIdeal.Reg2

end
-- ==== Proof.Spec.lean ====
/-
  The arithmetic of a two-layer graph convolution followed by a linear read-out and a logistic, written twice over the
  extended reals, index by index, as functions of the argument arrays:

  * `outK`: every node's features are scaled by the node's normalisation weight `g v` BEFORE they are gathered along the
    edges, the gathered rows are summed into their destination nodes, and the sum is scaled by the destination's
    weight AFTER the sum;
  * `outR`: the gathered row of every edge is scaled by the product `g (source) · g (destination)` of the edge's two
    weights, and the scaled rows are summed into their destination nodes.

  The two agree whenever every weight is a non-negative real number (a product by such a number distributes over any
  sum of extended reals): Proof/SpecLaw.lean.  Nothing here mentions a program: the gather's and the scatter's
  dimension numbers, the weights `g`, and the three arrays of edge endpoints (`sI`: the sources as the gathers read
  them, `dI`: the destinations as the gathers read them, `dR`: the destinations as the scatters read them) are
  parameters.
-/
import Idealize.ShloMosaic.PureOps.Ideal
import Idealize.ShloMosaic.PureOps.Ideal.Laws
import Idealize.ShloMosaic.Lib.ValueIdx

noncomputable section

open scoped BigOperators

namespace Gcn

open Idealize.ShloMosaic Idealize.ShloMosaic.ValueIdx

/-- The nodes. -/
abbrev SN : Shape := ⟨1, ![100000]⟩
/-- The edges, self loops included. -/
abbrev SE : Shape := ⟨1, ![3300000]⟩
/-- One endpoint per edge, as a column. -/
abbrev SE1 : Shape := ⟨2, ![3300000, 1]⟩
/-- One value per node, as a column. -/
abbrev SN1 : Shape := ⟨2, ![100000, 1]⟩
/-- `C` features per node. -/
abbrev SNx (C : Nat) : Shape := ⟨2, ![100000, C]⟩
/-- `C` features per edge. -/
abbrev SEx (C : Nat) : Shape := ⟨2, ![3300000, C]⟩
/-- A `K × C` matrix of weights. -/
abbrev SW (K C : Nat) : Shape := ⟨2, ![K, C]⟩
/-- A vector of `C` biases. -/
abbrev SB (C : Nat) : Shape := ⟨1, ![C]⟩

/-- The node an endpoint word names when a gather reads it: the word read as a signed integer and clamped to the nodes. -/
def clampRow (b : BitVec 32) : Fin 100000 := ⟨min b.toInt.toNat 99999, by omega⟩

/-- The node of a per-node feature index. -/
def nodeOf {C : Nat} (i : (SNx C).Idx) : Fin 100000 := i 0
/-- The feature of a per-node feature index. -/
def featOf {C : Nat} (i : (SNx C).Idx) : Fin C := i 1
/-- The edge of a per-edge feature index. -/
def edgeOf {C : Nat} (j : (SEx C).Idx) : Fin 3300000 := j 0

/-- The matrix product `A · W`, row by row. -/
def mm {K C : Nat} (A : (SNx K).Idx → EReal) (W : (SW K C).Idx → EReal) : (SNx C).Idx → EReal :=
  fun i => ∑ k : Fin K, A (ix2 (nodeOf i) k) * W (ix2 k (featOf i))

/-- Every row scaled by its node's weight. -/
def scaled {C : Nat} (g : SN.Idx → EReal) (H : (SNx C).Idx → EReal) : (SNx C).Idx → EReal :=
  fun i => H i * g (ix1 (nodeOf i))

/-- The rows `M` gathered along the edges from their sources and summed into their destinations. -/
def agg {C : Nat} (G : GatherDims (SNx C) SE1 (SEx C)) (D : ScatterDims (SNx C) SE1 (SEx C)) (sI dR : IVec SE1 32)
    (M : (SNx C).Idx → EReal) : (SNx C).Idx → EReal :=
  Ideal.hostScatterAdd D (fun _ => 0) dR (fun j => M (G.operandIdx j sI))

/-- The same with every edge's row scaled by the product of the edge's two weights, each gathered at its endpoint. -/
def aggN {C : Nat} (G : GatherDims (SNx C) SE1 (SEx C)) (D : ScatterDims (SNx C) SE1 (SEx C)) (G1 : GatherDims SN SE1 SE)
    (g : SN.Idx → EReal) (sI dI dR : IVec SE1 32) (H : (SNx C).Idx → EReal) : (SNx C).Idx → EReal :=
  Ideal.hostScatterAdd D (fun _ => 0) dR
    (fun j => H (G.operandIdx j sI) * (g (G1.operandIdx (ix1 (edgeOf j)) sI) * g (G1.operandIdx (ix1 (edgeOf j)) dI)))

/-- Scale the summed rows by the destination's weight, add the bias, clip below at zero. -/
def actK {C : Nat} (g : SN.Idx → EReal) (b : (SB C).Idx → EReal) (A : (SNx C).Idx → EReal) : (SNx C).Idx → EReal :=
  fun i => max (A i * g (ix1 (nodeOf i)) + b (ix1 (featOf i))) 0

/-- Add the bias, clip below at zero. -/
def actR {C : Nat} (b : (SB C).Idx → EReal) (A : (SNx C).Idx → EReal) : (SNx C).Idx → EReal :=
  fun i => max (A i + b (ix1 (featOf i))) 0

section
variable (G64 : GatherDims (SNx 64) SE1 (SEx 64)) (D64 : ScatterDims (SNx 64) SE1 (SEx 64))
  (G32 : GatherDims (SNx 32) SE1 (SEx 32)) (D32 : ScatterDims (SNx 32) SE1 (SEx 32)) (G1 : GatherDims SN SE1 SE)
  (g : SN.Idx → EReal) (sI dI dR : IVec SE1 32)
  (x : (SNx 256).Idx → EReal) (W1 : (SW 256 64).Idx → EReal) (b1 : (SB 64).Idx → EReal)
  (W2 : (SW 64 32).Idx → EReal) (b2 : (SB 32).Idx → EReal) (fcw : (SW 32 1).Idx → EReal) (fcb : (SB 1).Idx → EReal)

/-- The first layer's summed rows, sources pre-scaled. -/
def a1K : (SNx 64).Idx → EReal := agg G64 D64 sI dR (scaled g (mm x W1))
/-- The second layer's summed rows, sources pre-scaled. -/
def a2K : (SNx 32).Idx → EReal := agg G32 D32 sI dR (scaled g (mm (actK g b1 (a1K G64 D64 g sI dR x W1)) W2))
/-- The result with the weights applied before the gather and after the sum. -/
def outK : (SNx 1).Idx → EReal :=
  fun i => Ideal.logistic (mm (actK g b2 (a2K G64 D64 G32 D32 g sI dR x W1 b1 W2)) fcw i + fcb (ix1 0))

/-- The first layer's summed rows, edges scaled. -/
def a1R : (SNx 64).Idx → EReal := aggN G64 D64 G1 g sI dI dR (mm x W1)
/-- The second layer's summed rows, edges scaled. -/
def a2R : (SNx 32).Idx → EReal := aggN G32 D32 G1 g sI dI dR (mm (actR b1 (a1R G64 D64 G1 g sI dI dR x W1)) W2)
/-- The result with the weights applied edge by edge. -/
def outR : (SNx 1).Idx → EReal :=
  fun i => Ideal.div 1 (1 + Ideal.exp (-(mm (actR b2 (a2R G64 D64 G32 D32 G1 g sI dI dR x W1 b1 W2)) fcw i + fcb (ix1 0))))
end

end Gcn

end
-- ==== Proof.KPure.lean ====
/-
  The kernel program's stages as the specification's functions.  Each kernel region leaves one function of the arrays
  it finds (Proof/Reg0.lean, Proof/Reg1.lean), and between the regions the host gathers rows along the edges and sums
  them into their destinations; with the weight vector laid as a column and the bias vectors laid as rows, these are
  the specification's `scaled`, `mm`, `actK` and `agg` (Proof/Spec.lean).  Nothing here mentions a run.
-/
import proofs.«146168_j62569083568519_2_alg».proof.Proof.Reg0
import proofs.«146168_j62569083568519_2_alg».proof.Proof.Reg1
import proofs.«146168_j62569083568519_2_alg».proof.Proof.Reg2
import proofs.«146168_j62569083568519_2_alg».proof.Proof.Stages
import proofs.«146168_j62569083568519_2_alg».proof.Proof.Spec
import Idealize.ShloMosaic.Lib.ValueLayout
import Idealize.ShloMosaic.Lib.KernelVsHost
import Idealize.ShloMosaic.Lib.Pipeline.Value

noncomputable section

open scoped BigOperators

namespace Cert.KernelIdeal.KPure

open Cert.KernelIdeal Cert.KernelIdeal.Gen Idealize.ShloMosaic Idealize.ShloMosaic.ValueIdx Gcn

/-- The scalar zero laid over a whole array is the zero array. -/
theorem zero_splat {S : Shape} (h : S_.BroadcastsInDim S ![]) :
    (broadcastInDim S ![] h (constant (F := Ideal) S_ .f32 0x00000000#32) : S.Idx → EReal) = fun _ => 0 :=
  funext fun _ => Ideal.ofBits_zero_f32

section
variable (x : S100000x256.Idx → EReal) (W1 : S256x64.Idx → EReal) (b1 : S64.Idx → EReal) (W2 : S64x32.Idx → EReal)
  (g : S100000.Idx → EReal) (sI dR : IVec S3300000x1 32)

/-- The weight vector laid as a column reads, at row `v`, the weight of `v`. -/
theorem gcol_apply (v : Fin 100000) :
    shapeCast S100000x1 g shapeCasts_S100000_S100000x1 (ix2 v (0 : Fin 1)) = g (ix1 v) :=
  shapeCast_apply g shapeCasts_S100000_S100000x1 (ix2 v (0 : Fin 1)) (ix1 v) (by
    rw [Shape.rowMajor_val_two, Shape.rowMajor_val_one]; show v.val = v.val * 1 + 0; omega)

/-- The first region's function is the rows of `x · W1`, each scaled by its node's weight. -/
theorem rows0 : Reg0.rowsScaled x W1 (shapeCast S100000x1 g shapeCasts_S100000_S100000x1) = Gcn.scaled g (Gcn.mm x W1) := by
  funext i
  unfold Reg0.rowsScaled Gcn.scaled Gcn.mm
  exact congrArg₂ (· * ·) rfl (gcol_apply g (i 0))

/-- The host's gather along the edges followed by its sum into the destinations, from the zero array: 64 features. -/
theorem sum1 (M : S100000x64.Idx → EReal) :
    Host.scatterAdd (F := Ideal) (φ := .f32) scatter_S100000x64_S3300000x1_S3300000x64_1_0_0_1
        (broadcastInDim S100000x64 ![] bcast_S_S100000x64 (constant (F := Ideal) S_ .f32 0x00000000#32)) dR
        (extf (F := Ideal) .f32 (Host.gather gather_S100000x64_S3300000x1_S3300000x64_1_0_n_n_0_1_164 (M : FVec Ideal S100000x64 .bf16) sI) bitsLt_bf16_f32)
      = Gcn.agg gather_S100000x64_S3300000x1_S3300000x64_1_0_n_n_0_1_164 scatter_S100000x64_S3300000x1_S3300000x64_1_0_0_1 sI dR M := by
  rw [zero_splat]
  rfl

/-- The same for 32 features. -/
theorem sum2 (M : S100000x32.Idx → EReal) :
    Host.scatterAdd (F := Ideal) (φ := .f32) scatter_S100000x32_S3300000x1_S3300000x32_1_0_0_1
        (broadcastInDim S100000x32 ![] bcast_S_S100000x32 (constant (F := Ideal) S_ .f32 0x00000000#32)) dR
        (extf (F := Ideal) .f32 (Host.gather gather_S100000x32_S3300000x1_S3300000x32_1_0_n_n_0_1_132 (M : FVec Ideal S100000x32 .bf16) sI) bitsLt_bf16_f32)
      = Gcn.agg gather_S100000x32_S3300000x1_S3300000x32_1_0_n_n_0_1_132 scatter_S100000x32_S3300000x1_S3300000x32_1_0_0_1 sI dR M := by
  rw [zero_splat]
  rfl

/-- The second region's function of the summed rows `A`: scale by the node's weight, add the bias, clip below at zero,
    multiply by `W2`, and scale the rows by the node's weight. -/
theorem rows1 (A : S100000x64.Idx → EReal) :
    Reg1.G1 A (shapeCast S100000x1 g shapeCasts_S100000_S100000x1) (shapeCast S1x64 b1 shapeCasts_S64_S1x64) W2
      = Gcn.scaled g (Gcn.mm (Gcn.actK g b1 A) W2) := by
  funext i
  unfold Reg1.G1 Gcn.scaled Gcn.mm Gcn.actK
  exact congrArg₂ (· * ·) (Finset.sum_congr rfl fun k _ => congrArg₂ (· * ·)
    (congrArg₂ max (congrArg₂ (· + ·) (congrArg₂ (· * ·) rfl (gcol_apply g (i 0))) (shapeCast_a_1a_apply b1 shapeCasts_S64_S1x64 (0 : Fin 1) k)) rfl) rfl)
    (gcol_apply g (i 0))

/-- The third region's function of the summed rows `A`: scale by the node's weight, add the bias, clip below at zero,
    multiply by the read-out weights, add the last bias, and take the logistic. -/
theorem rows2 (b2 : S32.Idx → EReal) (fcw : S32x1.Idx → EReal) (fcb : S1.Idx → EReal) (A : S100000x32.Idx → EReal) :
    Reg2.G2 A (shapeCast S100000x1 g shapeCasts_S100000_S100000x1) (shapeCast S1x32 b2 shapeCasts_S32_S1x32) fcw
        (shapeCast S1x1 fcb shapeCasts_S1_S1x1)
      = fun i => Ideal.logistic (Gcn.mm (Gcn.actK g b2 A) fcw i + fcb (ix1 (0 : Fin 1))) := by
  funext i
  unfold Reg2.G2 Gcn.mm Gcn.actK
  exact congrArg Ideal.logistic (congrArg₂ (· + ·) (Finset.sum_congr rfl fun k _ => congrArg₂ (· * ·)
    (congrArg₂ max (congrArg₂ (· + ·) (congrArg₂ (· * ·) rfl (gcol_apply g (i 0))) (shapeCast_a_1a_apply b2 shapeCasts_S32_S1x32 (0 : Fin 1) k)) rfl) rfl)
    (shapeCast_a_1a_apply fcb shapeCasts_S1_S1x1 (0 : Fin 1) (0 : Fin 1)))

/-- The three regions' functions composed through the host's two gather-and-sum stages are the specification's result
    with the weights applied before the gather and after the sum. -/
theorem kpure (b2 : S32.Idx → EReal) (fcw : S32x1.Idx → EReal) (fcb : S1.Idx → EReal) (s d : IVec S3300000 32) :
    Reg2.G2
        (Host.scatterAdd (F := Ideal) (φ := .f32) scatter_S100000x32_S3300000x1_S3300000x32_1_0_0_1
          (broadcastInDim S100000x32 ![] bcast_S_S100000x32 (constant (F := Ideal) S_ .f32 0x00000000#32)) (Stages.dstCol d)
          (extf (F := Ideal) .f32 (Host.gather gather_S100000x32_S3300000x1_S3300000x32_1_0_n_n_0_1_132
            (Reg1.G1
              (Host.scatterAdd (F := Ideal) (φ := .f32) scatter_S100000x64_S3300000x1_S3300000x64_1_0_0_1
                (broadcastInDim S100000x64 ![] bcast_S_S100000x64 (constant (F := Ideal) S_ .f32 0x00000000#32)) (Stages.dstCol d)
                (extf (F := Ideal) .f32 (Host.gather gather_S100000x64_S3300000x1_S3300000x64_1_0_n_n_0_1_164
                  (Reg0.rowsScaled x W1 (shapeCast S100000x1 g shapeCasts_S100000_S100000x1) : FVec Ideal S100000x64 .bf16)
                  (Stages.srcCol s)) bitsLt_bf16_f32))
              (shapeCast S100000x1 g shapeCasts_S100000_S100000x1) (shapeCast S1x64 b1 shapeCasts_S64_S1x64) W2 : FVec Ideal S100000x32 .bf16)
            (Stages.srcCol s)) bitsLt_bf16_f32))
        (shapeCast S100000x1 g shapeCasts_S100000_S100000x1) (shapeCast S1x32 b2 shapeCasts_S32_S1x32) fcw (shapeCast S1x1 fcb shapeCasts_S1_S1x1)
      = Gcn.outK gather_S100000x64_S3300000x1_S3300000x64_1_0_n_n_0_1_164 scatter_S100000x64_S3300000x1_S3300000x64_1_0_0_1 gather_S100000x32_S3300000x1_S3300000x32_1_0_n_n_0_1_132 scatter_S100000x32_S3300000x1_S3300000x32_1_0_0_1 g (Stages.srcCol s) (Stages.dstCol d) x W1 b1 W2 b2 fcw fcb := by
  rw [rows0, sum1, rows1, sum2, rows2]
  rfl
end

end Cert.KernelIdeal.KPure

end
-- ==== Proof.KVal.lean ====
/-
  The value the idealized kernel's run leaves in its result array, as the graph convolution's arithmetic with the
  node weights applied before the gather and after the sum (Proof/Spec.lean `Gcn.outK`): each region's output array is
  its function of the arrays the region finds (Proof/Reg0.lean, Reg1.lean, Reg2.lean), each host stretch's results are
  the operations' terms of the buffers the stretch finds (Proof/Stages.lean), the buffers read are walked back to where
  they were written (Proof/Walk.lean), and the composed term is the specification's (Proof/KPure.lean).
-/
import proofs.«146168_j62569083568519_2_alg».proof.Proof.Walk
import proofs.«146168_j62569083568519_2_alg».proof.Proof.Stages
import proofs.«146168_j62569083568519_2_alg».proof.Proof.Reg0
import proofs.«146168_j62569083568519_2_alg».proof.Proof.Reg1
import proofs.«146168_j62569083568519_2_alg».proof.Proof.Reg2
import proofs.«146168_j62569083568519_2_alg».proof.Proof.KPure
import proofs.«146168_j62569083568519_2_alg».proof.Proof.Spec

noncomputable section
open scoped BigOperators

namespace Cert.KernelIdeal.KVal

open Cert.KernelIdeal Cert.KernelIdeal.Gen Idealize.ShloMosaic Idealize.ShloMosaic.ValueIdx Idealize.ShloMosaic.TcCoe Idealize.SL.Sem Idealize.ShloMosaic.StableHlo
open Cert.KernelIdeal.Walk Cert.KernelIdeal.Stages

/-- Equal arrays give equal scaled rows. -/
theorem rs_congr {x x' : S100000x256.Idx → EReal} {w w' : S256x64.Idx → EReal} {d d' : S100000x1.Idx → EReal}
    (hx : x = x') (hw : w = w') (hd : d = d') : Reg0.rowsScaled x w d = Reg0.rowsScaled x' w' d' := by
  subst hx hw hd; rfl
/-- Equal arrays give equal second-region rows. -/
theorem g1_congr {a a' : S100000x64.Idx → EReal} {w w' : S100000x1.Idx → EReal} {b b' : S1x64.Idx → EReal} {W W' : S64x32.Idx → EReal}
    (ha : a = a') (hw : w = w') (hb : b = b') (hW : W = W') : Reg1.G1 a w b W = Reg1.G1 a' w' b' W' := by
  subst ha hw hb hW; rfl
/-- Equal arrays give equal third-region rows. -/
theorem g2_congr {a a' : S100000x32.Idx → EReal} {w w' : S100000x1.Idx → EReal} {b b' : S1x32.Idx → EReal} {W W' : S32x1.Idx → EReal}
    {f f' : S1x1.Idx → EReal}
    (ha : a = a') (hw : w = w') (hb : b = b') (hW : W = W') (hf : f = f') : Reg2.G2 a w b W f = Reg2.G2 a' w' b' W' f' := by
  subst ha hw hb hW hf; rfl

variable (m : (ℓ : Loc nD τ sig) → Buf (Elt Ideal) ℓ) (ρ : Dev nD → PrngReg) (c : Dev nD)

/-- The node weights, as the run holds them from the first region on. -/
def gK : S100000.Idx → EReal := W3 m ρ c (Proc.devRef .tc main_v14)
/-- The edges' source endpoints, self loops appended. -/
def s5 : IVec S3300000 32 := W3 m ρ c (Proc.devRef .tc main_v5)
/-- The edges' destination endpoints, self loops appended. -/
def d6 : IVec S3300000 32 := W3 m ρ c (Proc.devRef .tc main_v6)

/-- The weight column at the first region's entry. -/
theorem v15_3 : W3 m ρ c (Proc.devRef .tc main_v15) = shapeCast S100000x1 (gK m ρ c) shapeCasts_S100000_S100000x1 :=
  st_v15 (W2 m ρ c) (gK m ρ c) (w3_v14 m ρ c).symm
/-- … at the second region's entry. -/
theorem v15_5 : W5 m ρ c (Proc.devRef .tc main_v15) = shapeCast S100000x1 (gK m ρ c) shapeCasts_S100000_S100000x1 :=
  (w5_v15 m ρ c).trans (v15_3 m ρ c)
/-- … at the third region's entry. -/
theorem v15_7 : W7 m ρ c (Proc.devRef .tc main_v15) = shapeCast S100000x1 (gK m ρ c) shapeCasts_S100000_S100000x1 :=
  (w7_v15 m ρ c).trans (v15_3 m ρ c)

section Terms
variable (x : S100000x256.Idx → EReal) (W1 : S256x64.Idx → EReal) (b1 : S64.Idx → EReal) (W2 : S64x32.Idx → EReal)
  (b2 : S32.Idx → EReal) (fcw : S32x1.Idx → EReal) (fcb : S1.Idx → EReal) (g : S100000.Idx → EReal) (s d : IVec S3300000 32)

/-- The first region's rows. -/
def t16 : S100000x64.Idx → EReal := Reg0.rowsScaled x W1 (shapeCast S100000x1 g shapeCasts_S100000_S100000x1)
/-- The first layer's summed rows. -/
def t27 : S100000x64.Idx → EReal :=
  Host.scatterAdd (F := Ideal) (φ := .f32) scatter_S100000x64_S3300000x1_S3300000x64_1_0_0_1
    (broadcastInDim S100000x64 ![] bcast_S_S100000x64 (constant (F := Ideal) S_ .f32 0x00000000#32)) (dstCol d)
    (extf (F := Ideal) .f32 (Host.gather gather_S100000x64_S3300000x1_S3300000x64_1_0_n_n_0_1_164 (t16 x W1 g : FVec Ideal S100000x64 .bf16) (srcCol s)) bitsLt_bf16_f32)
/-- The second region's rows. -/
def t29 : S100000x32.Idx → EReal :=
  Reg1.G1 (t27 x W1 g s d) (shapeCast S100000x1 g shapeCasts_S100000_S100000x1) (shapeCast S1x64 b1 shapeCasts_S64_S1x64) W2
/-- The second layer's summed rows. -/
def t40 : S100000x32.Idx → EReal :=
  Host.scatterAdd (F := Ideal) (φ := .f32) scatter_S100000x32_S3300000x1_S3300000x32_1_0_0_1
    (broadcastInDim S100000x32 ![] bcast_S_S100000x32 (constant (F := Ideal) S_ .f32 0x00000000#32)) (dstCol d)
    (extf (F := Ideal) .f32 (Host.gather gather_S100000x32_S3300000x1_S3300000x32_1_0_n_n_0_1_132 (t29 x W1 b1 W2 g s d : FVec Ideal S100000x32 .bf16) (srcCol s)) bitsLt_bf16_f32)
/-- The third region's rows: the result. -/
def t43 : S100000x1.Idx → EReal :=
  Reg2.G2 (t40 x W1 b1 W2 g s d) (shapeCast S100000x1 g shapeCasts_S100000_S100000x1) (shapeCast S1x32 b2 shapeCasts_S32_S1x32) fcw
    (shapeCast S1x1 fcb shapeCasts_S1_S1x1)

/-- The composed term is the arithmetic with the weights applied before the gather and after the sum. -/
theorem t43_eq : t43 x W1 b1 W2 b2 fcw fcb g s d
    = Gcn.outK gather_S100000x64_S3300000x1_S3300000x64_1_0_n_n_0_1_164 scatter_S100000x64_S3300000x1_S3300000x64_1_0_0_1
        gather_S100000x32_S3300000x1_S3300000x32_1_0_n_n_0_1_132 scatter_S100000x32_S3300000x1_S3300000x32_1_0_0_1
        g (srcCol s) (dstCol d) x W1 b1 W2 b2 fcw fcb := by
  unfold t43 t40 t29 t27 t16
  exact KPure.kpure x W1 b1 W2 g b2 fcw fcb s d
end Terms

/-- The first region's output array. -/
theorem v16 : W4 m ρ c (Proc.devRef .tc main_v16)
    = t16 (m ((c : Thread nD τ).loc main_arg0)) (m ((c : Thread nD τ).loc main_arg2)) (gK m ρ c) :=
  (W4_arr m ρ c 3).trans ((Reg0.arr0 (V3 m ρ) c).trans (rs_congr (w3_arg0 m ρ c) (w3_arg2 m ρ c) (v15_3 m ρ c)))

/-- The first layer's summed rows. -/
theorem v27 : W5 m ρ c (Proc.devRef .tc main_v27)
    = t27 (m ((c : Thread nD τ).loc main_arg0)) (m ((c : Thread nD τ).loc main_arg2)) (gK m ρ c) (s5 m ρ c) (d6 m ρ c) :=
  st_v27 (W4 m ρ c) (d6 m ρ c) (s5 m ρ c) _ (w4_v6 m ρ c) (w4_v5 m ρ c) (v16 m ρ c)

/-- The first bias as a row, at the second region's entry. -/
theorem v28 : W5 m ρ c (Proc.devRef .tc main_v28) = shapeCast S1x64 (m ((c : Thread nD τ).loc main_arg3)) shapeCasts_S64_S1x64 :=
  st_v28 (W4 m ρ c) _ (w4_arg3 m ρ c)

/-- The second region's output array. -/
theorem v29 : W6 m ρ c (Proc.devRef .tc main_v29)
    = t29 (m ((c : Thread nD τ).loc main_arg0)) (m ((c : Thread nD τ).loc main_arg2)) (m ((c : Thread nD τ).loc main_arg3))
        (m ((c : Thread nD τ).loc main_arg4)) (gK m ρ c) (s5 m ρ c) (d6 m ρ c) :=
  (W6_arr m ρ c 4).trans ((Reg1.arr1G (V5 m ρ) c).trans (g1_congr (v27 m ρ c) (v15_5 m ρ c) (v28 m ρ c) (w5_arg4 m ρ c)))

/-- The second layer's summed rows. -/
theorem v40 : W7 m ρ c (Proc.devRef .tc main_v40)
    = t40 (m ((c : Thread nD τ).loc main_arg0)) (m ((c : Thread nD τ).loc main_arg2)) (m ((c : Thread nD τ).loc main_arg3))
        (m ((c : Thread nD τ).loc main_arg4)) (gK m ρ c) (s5 m ρ c) (d6 m ρ c) :=
  st_v40 (W6 m ρ c) (d6 m ρ c) (s5 m ρ c) _ (w6_v6 m ρ c) (w6_v5 m ρ c) (v29 m ρ c)

/-- The second bias as a row, at the third region's entry. -/
theorem v41 : W7 m ρ c (Proc.devRef .tc main_v41) = shapeCast S1x32 (m ((c : Thread nD τ).loc main_arg5)) shapeCasts_S32_S1x32 :=
  st_v41 (W6 m ρ c) _ (w6_arg5 m ρ c)

/-- The last bias as a one-by-one matrix, at the third region's entry. -/
theorem v42 : W7 m ρ c (Proc.devRef .tc main_v42) = shapeCast S1x1 (m ((c : Thread nD τ).loc main_arg7)) shapeCasts_S1_S1x1 :=
  st_v42 (W6 m ρ c) _ (w6_arg7 m ρ c)

/-- The result array at the end of the run. -/
theorem v43 : W8 m ρ c (Proc.devRef .tc main_v43)
    = t43 (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (gK m ρ c) (s5 m ρ c) (d6 m ρ c) :=
  (W8_arr m ρ c 5).trans ((Reg2.arr2G (V7 m ρ) c).trans
    (g2_congr (v40 m ρ c) (v15_7 m ρ c) (v41 m ρ c) (w7_arg6 m ρ c) (v42 m ρ c)))

/-- The result array at the end of the run is the arithmetic with the weights applied before the gather and after the sum,
    of the argument arrays, the node weights and the edge endpoints as the run holds them. -/
theorem result_eq : W8 m ρ c (Proc.devRef .tc main_v43)
    = Gcn.outK gather_S100000x64_S3300000x1_S3300000x64_1_0_n_n_0_1_164 scatter_S100000x64_S3300000x1_S3300000x64_1_0_0_1
        gather_S100000x32_S3300000x1_S3300000x32_1_0_n_n_0_1_132 scatter_S100000x32_S3300000x1_S3300000x32_1_0_0_1
        (gK m ρ c) (srcCol (s5 m ρ c)) (dstCol (d6 m ρ c)) (m ((c : Thread nD τ).loc main_arg0)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (v43 m ρ c).trans (t43_eq _ _ _ _ _ _ _ _ _ _)

end Cert.KernelIdeal.KVal

end
-- ==== Proof.IdxSame.lean ====
/-
  The kernel's program builds its edge endpoint arrays and its node weights, before its first region, by the same
  host operations as the reference: the two rows of the edge argument sliced and flattened, the node numbers appended
  as self loops, the degrees summed by a scatter of ones, and the weights `where(deg > 0, rsqrt deg, 0)`. Read back
  through the run, the three buffers hold the reference's stages at the kernel's edge argument.
-/
import proofs.«146168_j62569083568519_2_alg».proof.Proof.Walk
import proofs.«146168_j62569083568519_2_alg».proof.Proof.RefRead

noncomputable section

namespace Cert.IdxSame

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## Contents carried along an equation between buffer types

A typed reference carries contents between its value's type and its buffer's type along the equation of the two; the
carried contents are the contents. -/

section Casts
variable {sg : RefSig} {Vl : EltTy → Type} {T : BufTy}

theorem ofBuf_eq_of_heq (x : StableHlo.TRef sg T) (v : x.ref.ty.Contents Vl) (w : T.Contents Vl) (h : HEq v w) :
    x.ofBuf v = w :=
  eq_of_heq ((cast_heq _ _).trans h)

theorem toBuf_eq_of_heq (x : StableHlo.TRef sg T) (v : T.Contents Vl) (w : x.ref.ty.Contents Vl) (h : HEq v w) :
    x.toBuf v = w :=
  eq_of_heq ((cast_heq _ _).trans h)

theorem ofBuf_toBuf (x : StableHlo.TRef sg T) (v : T.Contents Vl) : x.ofBuf (x.toBuf v) = v :=
  eq_of_heq ((cast_heq _ _).trans (cast_heq _ _))

end Casts

/-- The sources with the self loops appended. -/
theorem s5_eq : W3 m ρ c (Proc.devRef .tc main_v5)
    = Cert.ReferenceIdeal.ReadP.val_main_v6 (F := Ideal) (m ((c : Thread nD τ).loc main_arg1)) :=
  calc W3 m ρ c (Proc.devRef .tc main_v5)
    _ = W2 m ρ c (Proc.devRef .tc main_v5) := StableHlo.after_of_forall_not_mem (b := Proc.devRef .tc main_v5) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v5) := StableHlo.after_of_forall_not_mem (b := Proc.devRef .tc main_v5) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Cert.ReferenceIdeal.ReadP.val_main_v6 (F := Ideal) (m ((c : Thread nD τ).loc main_arg1)) := by
          show StableHlo.after hostOps0 (W0 m ρ c) (Proc.devRef .tc main_v5) = _
          after_results
          rfl

/-- The destinations with the self loops appended. -/
theorem d6_eq : W3 m ρ c (Proc.devRef .tc main_v6)
    = Cert.ReferenceIdeal.ReadP.val_main_v7 (F := Ideal) (m ((c : Thread nD τ).loc main_arg1)) :=
  calc W3 m ρ c (Proc.devRef .tc main_v6)
    _ = W2 m ρ c (Proc.devRef .tc main_v6) := StableHlo.after_of_forall_not_mem (b := Proc.devRef .tc main_v6) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := StableHlo.after_of_forall_not_mem (b := Proc.devRef .tc main_v6) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Cert.ReferenceIdeal.ReadP.val_main_v7 (F := Ideal) (m ((c : Thread nD τ).loc main_arg1)) := by
          show StableHlo.after hostOps0 (W0 m ρ c) (Proc.devRef .tc main_v6) = _
          after_results
          rfl

/-- The bits "the degree is positive", after the first stretch. -/
theorem w1_v12 : W1 m ρ c (Proc.devRef .tc main_v12) = Cert.ReferenceIdeal.ReadP.val_main_v13 (F := Ideal) (m ((c : Thread nD τ).loc main_arg1)) := by
  show StableHlo.after hostOps0 (W0 m ρ c) (Proc.devRef .tc main_v12) = _
  after_results
  rfl

/-- The reciprocal square roots of the degrees, after the first stretch. -/
theorem w1_v13 : W1 m ρ c (Proc.devRef .tc main_v13) = Cert.ReferenceIdeal.ReadP.val_main_v14 (F := Ideal) (m ((c : Thread nD τ).loc main_arg1)) := by
  show StableHlo.after hostOps0 (W0 m ρ c) (Proc.devRef .tc main_v13) = _
  after_results
  rfl

/-- The zero the weights default to, after the first stretch. -/
theorem w1_cst_2 : W1 m ρ c (Proc.devRef .tc main_cst_2) = Cert.ReferenceIdeal.ReadP.val_main_cst_2 (F := Ideal) := by
  show StableHlo.after hostOps0 (W0 m ρ c) (Proc.devRef .tc main_cst_2) = _
  after_results
  rfl

set_option maxRecDepth 8192 in
/-- The node weights `where(deg > 0, rsqrt deg, 0)`. -/
theorem g_eq : W3 m ρ c (Proc.devRef .tc main_v14)
    = Cert.ReferenceIdeal.ReadP.val_main_v15 (F := Ideal) (m ((c : Thread nD τ).loc main_arg1)) :=
  calc W3 m ρ c (Proc.devRef .tc main_v14)
    _ = W2 m ρ c (Proc.devRef .tc main_v14) := Cert.KernelIdeal.Walk.w3_v14 m ρ c
    _ = Cert.ReferenceIdeal.ReadP.val_main_v15 (F := Ideal) (m ((c : Thread nD τ).loc main_arg1)) := by
          have h12 := w1_v12 m ρ c
          have h13 := w1_v13 m ρ c
          have hc2 := w1_cst_2 m ρ c
          show StableHlo.after hostOps0_1 (W1 m ρ c) (Proc.devRef .tc main_v14) = _
          generalize W1 m ρ c = V at h12 h13 hc2 ⊢
          after_results
          have e12 := ofBuf_eq_of_heq (.of main_v12 : StableHlo.TRef sig ⟨S100000, .i1⟩) _ _ (heq_of_eq h12)
          have e13 := ofBuf_eq_of_heq (.of main_v13 : StableHlo.TRef sig ⟨S100000, .f32⟩) _ _ (heq_of_eq h13)
          have ec2 := ofBuf_eq_of_heq (.of main_cst_2 : StableHlo.TRef sig ⟨S_, .f32⟩) _ _ (heq_of_eq hc2)
          rw [e12, e13, ec2, ofBuf_toBuf, ofBuf_toBuf]
          exact toBuf_eq_of_heq _ _ _ (heq_of_eq rfl)

end Cert.IdxSame

end
-- ==== Proof.RefIsR.lean ====
/-
  The reference program's result, read index by index at the ideal instance, is the edge-scaled two-layer graph
  convolution `Gcn.outR` of Proof/Spec.lean at the reference's own edge arrays and node weights: the node weights
  `where(deg > 0, rsqrt deg, 0)`, the source and destination endpoints normalised (a negative one plus the number of
  nodes) as columns for the gathers, and the raw destination endpoints as a column for the scatters. Each of the two
  layers rebuilds these from the edge argument by the same operations, so the second layer's copies are the first's.
  Then the layers are read operation by operation: a matrix product is `Gcn.mm`, a gather reads its operand at the
  gather's operand index, a scatter with an add body is the exact sum over the updates landing at an element, a
  broadcast reads its operand at the kept coordinates.
-/
import proofs.«146168_j62569083568519_2_alg».proof.Proof.RefRead
import proofs.«146168_j62569083568519_2_alg».proof.Proof.Spec

noncomputable section

open scoped BigOperators

namespace Cert.ReferenceIdeal.RefValue

open Cert.ReferenceIdeal Cert.ReferenceIdeal.Gen Idealize.ShloMosaic Idealize.ShloMosaic.ValueIdx Cert.ReferenceIdeal.ReadP Gcn

/-- The word of the float one is the extended real one. -/
theorem ofBits_one_f32 : Ideal.ofBits .f32 0x3F800000#32 = 1 := by
  simp [Ideal.ofBits, Ideal.ieee, -EReal.coe_mul]; norm_num

/-! ## The second layer recomputes the edge arrays and the node weights of the first

Both layers build the edge endpoints with self loops, their normalised columns, the degrees and the node weights
from the same argument by the same operations: as functions of the edge argument the second layer's stages are the
first layer's. -/

section Same
variable {F : FTy → Type} [FloatOps F]

theorem v49_eq : val_main_v49 (F := F) = val_main_v5 := rfl
theorem v50_eq (x1 : (⟨S2x3200000, .i32⟩ : BufTy).Contents (Elt F)) : val_main_v50 (F := F) x1 = val_main_v6 x1 := by
  unfold val_main_v50 val_main_v6; rw [v49_eq]
theorem v51_eq (x1 : (⟨S2x3200000, .i32⟩ : BufTy).Contents (Elt F)) : val_main_v51 (F := F) x1 = val_main_v7 x1 := by
  unfold val_main_v51 val_main_v7; rw [v49_eq]
/-- The source endpoints, normalised, as a column: four copies. -/
theorem v21_eq (x1 : (⟨S2x3200000, .i32⟩ : BufTy).Contents (Elt F)) : val_main_v21 (F := F) x1 = val_main_v36 x1 := rfl
theorem v65_eq (x1 : (⟨S2x3200000, .i32⟩ : BufTy).Contents (Elt F)) : val_main_v65 (F := F) x1 = val_main_v36 x1 := by
  unfold val_main_v65 val_main_v64 val_main_v61 val_main_v63; rw [v50_eq]; rfl
theorem v80_eq (x1 : (⟨S2x3200000, .i32⟩ : BufTy).Contents (Elt F)) : val_main_v80 (F := F) x1 = val_main_v36 x1 := by
  unfold val_main_v80 val_main_v79 val_main_v76 val_main_v78; rw [v50_eq]; rfl
/-- The destination endpoints, normalised, as a column: two copies. -/
theorem v72_eq (x1 : (⟨S2x3200000, .i32⟩ : BufTy).Contents (Elt F)) : val_main_v72 (F := F) x1 = val_main_v28 x1 := by
  unfold val_main_v72 val_main_v71 val_main_v68 val_main_v70; rw [v51_eq]; rfl
/-- The raw destination endpoints as a column: four copies. -/
theorem v10_eq (x1 : (⟨S2x3200000, .i32⟩ : BufTy).Contents (Elt F)) : val_main_v10 (F := F) x1 = val_main_v42 x1 := rfl
theorem v54_eq (x1 : (⟨S2x3200000, .i32⟩ : BufTy).Contents (Elt F)) : val_main_v54 (F := F) x1 = val_main_v42 x1 := by
  unfold val_main_v54; rw [v51_eq]; rfl
theorem v86_eq (x1 : (⟨S2x3200000, .i32⟩ : BufTy).Contents (Elt F)) : val_main_v86 (F := F) x1 = val_main_v42 x1 := by
  unfold val_main_v86; rw [v51_eq]; rfl
/-- The node weights: two copies. -/
theorem v59_eq (x1 : (⟨S2x3200000, .i32⟩ : BufTy).Contents (Elt F)) : val_main_v59 (F := F) x1 = val_main_v15 x1 := by
  unfold val_main_v59 val_main_v57 val_main_v58 val_main_v55; rw [v54_eq, ← v10_eq]; rfl

end Same

/-! ## The first layer -/

/-- The first matrix product, row by row. -/
theorem h4 (x0 : (⟨S100000x256, .f32⟩ : BufTy).Contents (Elt Ideal)) (x2 : (⟨S256x64, .f32⟩ : BufTy).Contents (Elt Ideal)) : val_main_v4 (F := Ideal) x0 x2 = Gcn.mm x0 x2 := by
  funext i
  rw [val_main_v4_apply]
  unfold Gcn.mm
  refine Finset.sum_congr rfl fun k _ => ?_
  have e1 : lidx_main_v4 i k = ix2 (nodeOf i) k := funext fun a => Fin.ext (by match a with | ⟨0, _⟩ => rfl | ⟨1, _⟩ => rfl)
  have e2 : ridx_main_v4 i k = ix2 k (featOf i) := funext fun a => Fin.ext (by match a with | ⟨0, _⟩ => rfl | ⟨1, _⟩ => rfl)
  rw [e1, e2]

/-- An edge's weight: the product of the node weights gathered at its two endpoints. -/
theorem h30 (x1 : (⟨S2x3200000, .i32⟩ : BufTy).Contents (Elt Ideal)) : val_main_v30 (F := Ideal) x1 = fun e =>
    (val_main_v15 (F := Ideal) x1) (gather_S100000_S3300000x1_S3300000_n_0_n_n_0_1_1.operandIdx e (val_main_v36 (F := Ideal) x1)) * (val_main_v15 (F := Ideal) x1) (gather_S100000_S3300000x1_S3300000_n_0_n_n_0_1_1.operandIdx e (val_main_v28 (F := Ideal) x1)) := by
  funext e
  rw [val_main_v30_apply]
  unfold val_main_v22 val_main_v29 Host.gather
  rw [v21_eq]
  rfl

/-- The edge weights broadcast along the 64 features. -/
theorem h39 (x1 : (⟨S2x3200000, .i32⟩ : BufTy).Contents (Elt Ideal)) : val_main_v39 (F := Ideal) x1 = fun j => val_main_v30 (F := Ideal) x1 (ix1 (edgeOf j)) := by
  funext j
  rw [val_main_v39_apply, val_main_v38_apply]
  have e : idx_main_v38 (idx_main_v39 j) = ix1 (edgeOf j) := funext fun a => Fin.ext (by match a with | ⟨0, _⟩ => rfl)
  rw [e]

/-- The gathered rows of the first product, each scaled by its edge's weight. -/
theorem h40 (x0 : (⟨S100000x256, .f32⟩ : BufTy).Contents (Elt Ideal)) (x1 : (⟨S2x3200000, .i32⟩ : BufTy).Contents (Elt Ideal)) (x2 : (⟨S256x64, .f32⟩ : BufTy).Contents (Elt Ideal)) : val_main_v40 (F := Ideal) x0 x1 x2 = fun j =>
    Gcn.mm x0 x2 (gather_S100000x64_S3300000x1_S3300000x64_1_0_n_n_0_1_164.operandIdx j (val_main_v36 (F := Ideal) x1)) *
      ((val_main_v15 (F := Ideal) x1) (gather_S100000_S3300000x1_S3300000_n_0_n_n_0_1_1.operandIdx (ix1 (edgeOf j)) (val_main_v36 (F := Ideal) x1)) * (val_main_v15 (F := Ideal) x1) (gather_S100000_S3300000x1_S3300000_n_0_n_n_0_1_1.operandIdx (ix1 (edgeOf j)) (val_main_v28 (F := Ideal) x1))) := by
  funext j
  rw [val_main_v40_apply]
  unfold val_main_v37 Host.gather
  rw [h4, h39, h30]
  rfl

/-- The zero array the first scatter adds into. -/
theorem h41 : val_main_v41 (F := Ideal) = fun _ => 0 := by
  funext i
  rw [val_main_v41_apply, val_main_cst_8_apply, Ideal.ofBits_def, Ideal.ofBits_zero_f32]

/-- The first layer's summed rows. -/
theorem h43 (x0 : (⟨S100000x256, .f32⟩ : BufTy).Contents (Elt Ideal)) (x1 : (⟨S2x3200000, .i32⟩ : BufTy).Contents (Elt Ideal)) (x2 : (⟨S256x64, .f32⟩ : BufTy).Contents (Elt Ideal)) : val_main_v43 (F := Ideal) x0 x1 x2 = (Gcn.a1R gather_S100000x64_S3300000x1_S3300000x64_1_0_n_n_0_1_164 scatter_S100000x64_S3300000x1_S3300000x64_1_0_0_1 gather_S100000_S3300000x1_S3300000_n_0_n_n_0_1_1 (val_main_v15 (F := Ideal) x1) (val_main_v36 (F := Ideal) x1) (val_main_v28 (F := Ideal) x1) (val_main_v42 (F := Ideal) x1) x0 x2) := by
  unfold val_main_v43 Gcn.a1R Gcn.aggN Host.scatterAdd
  rw [Ideal.hostScatterAdd_def, h40, h41]

/-- The first layer after the bias and the clip. -/
theorem h47 (x0 : (⟨S100000x256, .f32⟩ : BufTy).Contents (Elt Ideal)) (x1 : (⟨S2x3200000, .i32⟩ : BufTy).Contents (Elt Ideal)) (x2 : (⟨S256x64, .f32⟩ : BufTy).Contents (Elt Ideal)) (x3 : (⟨S64, .f32⟩ : BufTy).Contents (Elt Ideal)) : val_main_v47 (F := Ideal) x0 x1 x2 x3 = Gcn.actR x3 (Gcn.a1R gather_S100000x64_S3300000x1_S3300000x64_1_0_n_n_0_1_164 scatter_S100000x64_S3300000x1_S3300000x64_1_0_0_1 gather_S100000_S3300000x1_S3300000_n_0_n_n_0_1_1 (val_main_v15 (F := Ideal) x1) (val_main_v36 (F := Ideal) x1) (val_main_v28 (F := Ideal) x1) (val_main_v42 (F := Ideal) x1) x0 x2) := by
  funext i
  rw [val_main_v47_apply, val_main_v46_apply, h43, val_main_v45_apply, val_main_v44_apply, val_main_call1_v0_apply,
    val_main_call1_cst_apply, Ideal.ofBits_def, Ideal.ofBits_zero_f32]
  have e : idx_main_v44 (idx_main_v45 i) = ix1 (featOf i) := funext fun a => Fin.ext (by match a with | ⟨0, _⟩ => rfl)
  rw [e]
  rfl

/-- The second matrix product. -/
theorem h48 (x0 : (⟨S100000x256, .f32⟩ : BufTy).Contents (Elt Ideal)) (x1 : (⟨S2x3200000, .i32⟩ : BufTy).Contents (Elt Ideal)) (x2 : (⟨S256x64, .f32⟩ : BufTy).Contents (Elt Ideal)) (x3 : (⟨S64, .f32⟩ : BufTy).Contents (Elt Ideal)) (x4 : (⟨S64x32, .f32⟩ : BufTy).Contents (Elt Ideal)) :
    val_main_v48 (F := Ideal) x0 x1 x2 x3 x4 = Gcn.mm (Gcn.actR x3 (Gcn.a1R gather_S100000x64_S3300000x1_S3300000x64_1_0_n_n_0_1_164 scatter_S100000x64_S3300000x1_S3300000x64_1_0_0_1 gather_S100000_S3300000x1_S3300000_n_0_n_n_0_1_1 (val_main_v15 (F := Ideal) x1) (val_main_v36 (F := Ideal) x1) (val_main_v28 (F := Ideal) x1) (val_main_v42 (F := Ideal) x1) x0 x2)) x4 := by
  funext i
  rw [val_main_v48_apply, h47]
  unfold Gcn.mm
  refine Finset.sum_congr rfl fun k _ => ?_
  have e1 : lidx_main_v48 i k = ix2 (nodeOf i) k := funext fun a => Fin.ext (by match a with | ⟨0, _⟩ => rfl | ⟨1, _⟩ => rfl)
  have e2 : ridx_main_v48 i k = ix2 k (featOf i) := funext fun a => Fin.ext (by match a with | ⟨0, _⟩ => rfl | ⟨1, _⟩ => rfl)
  rw [e1, e2]

/-! ## The second layer -/

/-- The second layer's edge weights are the first layer's. -/
theorem v74_eq {F : FTy → Type} [FloatOps F] (x1 : (⟨S2x3200000, .i32⟩ : BufTy).Contents (Elt F)) : val_main_v74 (F := F) x1 = val_main_v30 x1 := by
  unfold val_main_v74 val_main_v66 val_main_v73
  rw [v59_eq, v65_eq, v72_eq, ← v21_eq]
  rfl

/-- The edge weights broadcast along the 32 features. -/
theorem h83 (x1 : (⟨S2x3200000, .i32⟩ : BufTy).Contents (Elt Ideal)) : val_main_v83 (F := Ideal) x1 = fun j => val_main_v30 (F := Ideal) x1 (ix1 (edgeOf j)) := by
  funext j
  rw [val_main_v83_apply, val_main_v82_apply, v74_eq]
  have e : idx_main_v82 (idx_main_v83 j) = ix1 (edgeOf j) := funext fun a => Fin.ext (by match a with | ⟨0, _⟩ => rfl)
  rw [e]

/-- The gathered rows of the second product, each scaled by its edge's weight. -/
theorem h84 (x0 : (⟨S100000x256, .f32⟩ : BufTy).Contents (Elt Ideal)) (x1 : (⟨S2x3200000, .i32⟩ : BufTy).Contents (Elt Ideal)) (x2 : (⟨S256x64, .f32⟩ : BufTy).Contents (Elt Ideal)) (x3 : (⟨S64, .f32⟩ : BufTy).Contents (Elt Ideal)) (x4 : (⟨S64x32, .f32⟩ : BufTy).Contents (Elt Ideal)) : val_main_v84 (F := Ideal) x0 x1 x2 x3 x4 = fun j =>
    Gcn.mm (Gcn.actR x3 (Gcn.a1R gather_S100000x64_S3300000x1_S3300000x64_1_0_n_n_0_1_164 scatter_S100000x64_S3300000x1_S3300000x64_1_0_0_1 gather_S100000_S3300000x1_S3300000_n_0_n_n_0_1_1 (val_main_v15 (F := Ideal) x1) (val_main_v36 (F := Ideal) x1) (val_main_v28 (F := Ideal) x1) (val_main_v42 (F := Ideal) x1) x0 x2)) x4 (gather_S100000x32_S3300000x1_S3300000x32_1_0_n_n_0_1_132.operandIdx j (val_main_v36 (F := Ideal) x1)) *
      ((val_main_v15 (F := Ideal) x1) (gather_S100000_S3300000x1_S3300000_n_0_n_n_0_1_1.operandIdx (ix1 (edgeOf j)) (val_main_v36 (F := Ideal) x1)) * (val_main_v15 (F := Ideal) x1) (gather_S100000_S3300000x1_S3300000_n_0_n_n_0_1_1.operandIdx (ix1 (edgeOf j)) (val_main_v28 (F := Ideal) x1))) := by
  funext j
  rw [val_main_v84_apply]
  unfold val_main_v81 Host.gather
  rw [h48, v80_eq, h83, h30]
  rfl

/-- The zero array the second scatter adds into. -/
theorem h85 : val_main_v85 (F := Ideal) = fun _ => 0 := by
  funext i
  rw [val_main_v85_apply, val_main_cst_19_apply, Ideal.ofBits_def, Ideal.ofBits_zero_f32]

/-- The second layer's summed rows. -/
theorem h87 (x0 : (⟨S100000x256, .f32⟩ : BufTy).Contents (Elt Ideal)) (x1 : (⟨S2x3200000, .i32⟩ : BufTy).Contents (Elt Ideal)) (x2 : (⟨S256x64, .f32⟩ : BufTy).Contents (Elt Ideal)) (x3 : (⟨S64, .f32⟩ : BufTy).Contents (Elt Ideal)) (x4 : (⟨S64x32, .f32⟩ : BufTy).Contents (Elt Ideal)) : val_main_v87 (F := Ideal) x0 x1 x2 x3 x4 = (Gcn.a2R gather_S100000x64_S3300000x1_S3300000x64_1_0_n_n_0_1_164 scatter_S100000x64_S3300000x1_S3300000x64_1_0_0_1 gather_S100000x32_S3300000x1_S3300000x32_1_0_n_n_0_1_132 scatter_S100000x32_S3300000x1_S3300000x32_1_0_0_1 gather_S100000_S3300000x1_S3300000_n_0_n_n_0_1_1 (val_main_v15 (F := Ideal) x1) (val_main_v36 (F := Ideal) x1) (val_main_v28 (F := Ideal) x1) (val_main_v42 (F := Ideal) x1) x0 x2 x3 x4) := by
  unfold val_main_v87 Gcn.a2R Gcn.aggN Host.scatterAdd
  rw [Ideal.hostScatterAdd_def, h84, h85, v86_eq]

/-- The second layer after the bias and the clip. -/
theorem h91 (x0 : (⟨S100000x256, .f32⟩ : BufTy).Contents (Elt Ideal)) (x1 : (⟨S2x3200000, .i32⟩ : BufTy).Contents (Elt Ideal)) (x2 : (⟨S256x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) :
    val_main_v91 (F := Ideal) x0 x1 x2 x3 x4 x5 = Gcn.actR x5 (Gcn.a2R gather_S100000x64_S3300000x1_S3300000x64_1_0_n_n_0_1_164 scatter_S100000x64_S3300000x1_S3300000x64_1_0_0_1 gather_S100000x32_S3300000x1_S3300000x32_1_0_n_n_0_1_132 scatter_S100000x32_S3300000x1_S3300000x32_1_0_0_1 gather_S100000_S3300000x1_S3300000_n_0_n_n_0_1_1 (val_main_v15 (F := Ideal) x1) (val_main_v36 (F := Ideal) x1) (val_main_v28 (F := Ideal) x1) (val_main_v42 (F := Ideal) x1) x0 x2 x3 x4) := by
  funext i
  rw [val_main_v91_apply, val_main_v90_apply, h87, val_main_v89_apply, val_main_v88_apply, val_main_call3_v0_apply,
    val_main_call3_cst_apply, Ideal.ofBits_def, Ideal.ofBits_zero_f32]
  have e : idx_main_v88 (idx_main_v89 i) = ix1 (featOf i) := funext fun a => Fin.ext (by match a with | ⟨0, _⟩ => rfl)
  rw [e]
  rfl

/-- The read-out product. -/
theorem h92 (x0 : (⟨S100000x256, .f32⟩ : BufTy).Contents (Elt Ideal)) (x1 : (⟨S2x3200000, .i32⟩ : BufTy).Contents (Elt Ideal)) (x2 : (⟨S256x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x1, .f32⟩ : BufTy).Contents (Elt Ideal)) :
    val_main_v92 (F := Ideal) x0 x1 x2 x3 x4 x5 x6 = Gcn.mm (Gcn.actR x5 (Gcn.a2R gather_S100000x64_S3300000x1_S3300000x64_1_0_n_n_0_1_164 scatter_S100000x64_S3300000x1_S3300000x64_1_0_0_1 gather_S100000x32_S3300000x1_S3300000x32_1_0_n_n_0_1_132 scatter_S100000x32_S3300000x1_S3300000x32_1_0_0_1 gather_S100000_S3300000x1_S3300000_n_0_n_n_0_1_1 (val_main_v15 (F := Ideal) x1) (val_main_v36 (F := Ideal) x1) (val_main_v28 (F := Ideal) x1) (val_main_v42 (F := Ideal) x1) x0 x2 x3 x4)) x6 := by
  funext i
  rw [val_main_v92_apply, h91]
  unfold Gcn.mm
  refine Finset.sum_congr rfl fun k _ => ?_
  have e1 : lidx_main_v92 i k = ix2 (nodeOf i) k := funext fun a => Fin.ext (by match a with | ⟨0, _⟩ => rfl | ⟨1, _⟩ => rfl)
  have e2 : ridx_main_v92 i k = ix2 k (featOf i) := funext fun a => Fin.ext (by match a with | ⟨0, _⟩ => rfl | ⟨1, _⟩ => rfl)
  rw [e1, e2]

/-! ## The reference's result -/

/-- The reference's result is the edge-scaled graph convolution, at its own edge arrays and node weights. -/
theorem ref_is_outR (x0 : (⟨S100000x256, .f32⟩ : BufTy).Contents (Elt Ideal)) (x1 : (⟨S2x3200000, .i32⟩ : BufTy).Contents (Elt Ideal)) (x2 : (⟨S256x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x1, .f32⟩ : BufTy).Contents (Elt Ideal)) (x7 : (⟨S1, .f32⟩ : BufTy).Contents (Elt Ideal)) :
    val_main_v101 (F := Ideal) x0 x1 x2 x3 x4 x5 x6 x7 =
      Gcn.outR gather_S100000x64_S3300000x1_S3300000x64_1_0_n_n_0_1_164 scatter_S100000x64_S3300000x1_S3300000x64_1_0_0_1 gather_S100000x32_S3300000x1_S3300000x32_1_0_n_n_0_1_132 scatter_S100000x32_S3300000x1_S3300000x32_1_0_0_1 gather_S100000_S3300000x1_S3300000_n_0_n_n_0_1_1 (val_main_v15 (F := Ideal) x1) (val_main_v36 (F := Ideal) x1) (val_main_v28 (F := Ideal) x1) (val_main_v42 (F := Ideal) x1) x0 x2 x3 x4 x5 x6 x7 := by
  funext i
  rw [val_main_v101_apply, val_main_v100_apply, val_main_cst_21_apply, val_main_v99_apply, val_main_v98_apply,
    val_main_cst_20_apply, val_main_v97_apply, val_main_v96_apply, val_main_v95_apply, h92, val_main_v94_apply,
    val_main_v93_apply, Ideal.ofBits_def, ofBits_one_f32]
  have e : idx_main_v93 (idx_main_v94 i) = ix1 0 := funext fun a => Fin.ext (by match a with | ⟨0, _⟩ => rfl)
  rw [e]
  unfold Gcn.outR
  rw [Ideal.hostDivf_def, Ideal.addf_def, Ideal.hostUnary_exp_def, Ideal.hostNegf_def, Ideal.negf_def, Ideal.addf_def]

/-! ## The endpoints and the weights -/

/-- An edge whose raw destination word is the node `v` read as a signed integer has `v` as its destination in the
    gathers: the word is not negative, so the normalisation keeps it, and the clamp to the nodes does too. -/
theorem ref_hd (x1 : (⟨S2x3200000, .i32⟩ : BufTy).Contents (Elt Ideal)) (e : Fin 3300000) (v : Fin 100000)
    (h : (val_main_v42 (F := Ideal) x1 (ix2 e (0 : Fin 1))).toInt = ((v.val : Nat) : Int)) :
    Gcn.clampRow (val_main_v28 (F := Ideal) x1 (ix2 e (0 : Fin 1))) = v := by
  have e42 : idx_main_v42 (ix2 e (0 : Fin 1)) = ix1 e := funext fun a => Fin.ext (by match a with | ⟨0, _⟩ => rfl)
  have e28 : idx_main_v28 (ix2 e (0 : Fin 1)) = ix1 e := funext fun a => Fin.ext (by match a with | ⟨0, _⟩ => rfl)
  rw [val_main_v42_apply, e42] at h
  rw [val_main_v28_apply, e28, val_main_v27_apply, val_main_v24_apply, val_main_v23_apply, val_main_c_4_apply]
  generalize val_main_v7 (F := Ideal) x1 (ix1 e) = d at h ⊢
  have hs : d.slt 0#32 = false := by
    simp [BitVec.slt, h]
  have hn : IntOp.cmpi .slt d 0#32 = 0#1 := by
    unfold IntOp.cmpi
    simp [hs]
  rw [hn, select_zero]
  unfold Gcn.clampRow
  apply Fin.ext
  show min d.toInt.toNat 99999 = v.val
  have hv := v.isLt
  omega

/-- The reciprocal square root of a positive extended real is a non-negative real. -/
theorem rsqrt_pos_is_real (x : EReal) (hx : 0 < x) : ∃ r : ℝ, 0 ≤ r ∧ Ideal.rsqrt x = (r : EReal) := by
  induction x using EReal.rec with
  | bot => exact absurd hx (by simp)
  | top => exact ⟨0, le_rfl, by simp⟩
  | coe r =>
    have hr : 0 < r := by exact_mod_cast hx
    refine ⟨(Real.sqrt r)⁻¹, inv_nonneg.mpr (Real.sqrt_nonneg r), ?_⟩
    rw [Ideal.rsqrt_coe, if_neg (not_lt.mpr hr.le), if_neg hr.ne']

/-- Every node weight is a non-negative real: the reciprocal square root of a positive degree, or zero. -/
theorem ref_hg (x1 : (⟨S2x3200000, .i32⟩ : BufTy).Contents (Elt Ideal)) (v : Gcn.SN.Idx) : ∃ r : ℝ, 0 ≤ r ∧ val_main_v15 (F := Ideal) x1 v = (r : EReal) := by
  rw [val_main_v15_apply, val_main_v13_apply, val_main_v14_apply, val_main_call0_v1_apply, val_main_call0_v0_apply,
    val_main_cst_2_apply, val_main_v12_apply, val_main_cst_1_apply, Ideal.ofBits_def, Ideal.ofBits_zero_f32,
    Ideal.cmpf_def, Ideal.hostUnary_rsqrt_def]
  generalize val_main_v11 (F := Ideal) x1 v = deg
  by_cases h : (0 : EReal) < deg
  · have hc : Ideal.cmp .ogt deg 0 = 1#1 := by unfold Ideal.cmp; simp [h]
    rw [hc, select_one]
    exact rsqrt_pos_is_real deg h
  · have hc : Ideal.cmp .ogt deg 0 = 0#1 := by unfold Ideal.cmp; simp [h]
    rw [hc, select_zero]
    exact ⟨0, le_rfl, by simp⟩

end Cert.ReferenceIdeal.RefValue

end
-- ==== Proof.SpecLaw.lean ====
/-
  The two ways of writing the two-layer graph convolution of Proof/Spec.lean agree when every normalisation weight is a
  non-negative real number: a product by such a number distributes over any finite sum of extended reals, so the
  destination's weight can be taken out of the sum over the edges that arrive at it.
-/
import proofs.«146168_j62569083568519_2_alg».proof.Proof.Spec
import Mathlib.Data.EReal.Operations

noncomputable section

open scoped BigOperators

namespace Gcn

open Idealize.ShloMosaic Idealize.ShloMosaic.ValueIdx

/-- A product by a non-negative real number distributes over a finite sum of extended reals. -/
theorem sum_mul_nonneg_real {ι : Type} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- One layer: scaling every edge's row by the product of the edge's two weights and summing is the same as scaling
    the rows by the source's weight, summing, and scaling the sum by the destination's weight. -/
theorem aggN_eq {C : Nat} (G : GatherDims (SNx C) SE1 (SEx C)) (D : ScatterDims (SNx C) SE1 (SEx C))
    (G1 : GatherDims SN SE1 SE) (g : SN.Idx → EReal) (sI dI dR : IVec SE1 32) (H : (SNx C).Idx → EReal)
    (hg : ∀ v : SN.Idx, ∃ r : ℝ, 0 ≤ r ∧ g v = (r : EReal))
    (hG : ∀ (idx : IVec SE1 32) (e : Fin 3300000) (c : Fin C),
      G.operandIdx (ix2 e c) idx = ix2 (clampRow (idx (ix2 e 0))) c)
    (hG1 : ∀ (idx : IVec SE1 32) (e : Fin 3300000), G1.operandIdx (ix1 e) idx = ix1 (clampRow (idx (ix2 e 0))))
    (hD : ∀ (idx : IVec SE1 32) (e : Fin 3300000) (c : Fin C) (i : (SNx C).Idx),
      D.resultIdx? (ix2 e c) idx = some i → (idx (ix2 e 0)).toInt = (((nodeOf i).val : Nat) : Int))
    (hd : ∀ (e : Fin 3300000) (v : Fin 100000),
      (dR (ix2 e 0)).toInt = ((v.val : Nat) : Int) → clampRow (dI (ix2 e 0)) = v)
    (i : (SNx C).Idx) :
    aggN G D G1 g sI dI dR H i = agg G D sI dR (scaled g H) i * g (ix1 (nodeOf i)) := by
  obtain ⟨r, hr, hgr⟩ := hg (ix1 (nodeOf i))
  unfold aggN agg Ideal.hostScatterAdd
  simp only [zero_add]
  rw [hgr, sum_mul_nonneg_real _ _ r hr]
  refine Finset.sum_congr rfl ?_
  intro j hj
  rw [Finset.mem_filter] at hj
  obtain ⟨e, c, rfl⟩ : ∃ (e : Fin 3300000) (c : Fin C), j = ix2 e c := ⟨j 0, j 1, eq_ix2 j⟩
  have h2 : clampRow (dI (ix2 e 0)) = nodeOf i := hd e (nodeOf i) (hD dR e c i hj.2)
  show H (G.operandIdx (ix2 e c) sI) * (g (G1.operandIdx (ix1 e) sI) * g (G1.operandIdx (ix1 e) dI))
    = H (G.operandIdx (ix2 e c) sI) * g (ix1 (nodeOf (G.operandIdx (ix2 e c) sI))) * (r : EReal)
  rw [hG sI e c, hG1 sI e, hG1 dI e, h2, hgr]
  show _ = H _ * g (ix1 (clampRow (sI (ix2 e 0)))) * _
  rw [mul_assoc]

section
variable (G64 : GatherDims (SNx 64) SE1 (SEx 64)) (D64 : ScatterDims (SNx 64) SE1 (SEx 64))
  (G32 : GatherDims (SNx 32) SE1 (SEx 32)) (D32 : ScatterDims (SNx 32) SE1 (SEx 32)) (G1 : GatherDims SN SE1 SE)
  (g : SN.Idx → EReal) (sI dI dR : IVec SE1 32)
  (x : (SNx 256).Idx → EReal) (W1 : (SW 256 64).Idx → EReal) (b1 : (SB 64).Idx → EReal)
  (W2 : (SW 64 32).Idx → EReal) (b2 : (SB 32).Idx → EReal) (fcw : (SW 32 1).Idx → EReal) (fcb : (SB 1).Idx → EReal)

/-- The two results agree when every weight is a non-negative real, the gathers read the clamped endpoint, the scatters
    write only at the node their endpoint word names, and the two arrays of destinations name the same node. -/
theorem outR_eq_outK
    (hg : ∀ v : SN.Idx, ∃ r : ℝ, 0 ≤ r ∧ g v = (r : EReal))
    (hG64 : ∀ (idx : IVec SE1 32) (e : Fin 3300000) (c : Fin 64),
      G64.operandIdx (ix2 e c) idx = ix2 (clampRow (idx (ix2 e 0))) c)
    (hG32 : ∀ (idx : IVec SE1 32) (e : Fin 3300000) (c : Fin 32),
      G32.operandIdx (ix2 e c) idx = ix2 (clampRow (idx (ix2 e 0))) c)
    (hG1 : ∀ (idx : IVec SE1 32) (e : Fin 3300000), G1.operandIdx (ix1 e) idx = ix1 (clampRow (idx (ix2 e 0))))
    (hD64 : ∀ (idx : IVec SE1 32) (e : Fin 3300000) (c : Fin 64) (i : (SNx 64).Idx),
      D64.resultIdx? (ix2 e c) idx = some i → (idx (ix2 e 0)).toInt = (((nodeOf i).val : Nat) : Int))
    (hD32 : ∀ (idx : IVec SE1 32) (e : Fin 3300000) (c : Fin 32) (i : (SNx 32).Idx),
      D32.resultIdx? (ix2 e c) idx = some i → (idx (ix2 e 0)).toInt = (((nodeOf i).val : Nat) : Int))
    (hd : ∀ (e : Fin 3300000) (v : Fin 100000),
      (dR (ix2 e 0)).toInt = ((v.val : Nat) : Int) → clampRow (dI (ix2 e 0)) = v) :
    outR G64 D64 G32 D32 G1 g sI dI dR x W1 b1 W2 b2 fcw fcb = outK G64 D64 G32 D32 g sI dR x W1 b1 W2 b2 fcw fcb := by
  have A1 : actR b1 (a1R G64 D64 G1 g sI dI dR x W1) = actK g b1 (a1K G64 D64 g sI dR x W1) := by
    funext i
    show max (aggN G64 D64 G1 g sI dI dR (mm x W1) i + b1 (ix1 (featOf i))) 0
      = max (agg G64 D64 sI dR (scaled g (mm x W1)) i * g (ix1 (nodeOf i)) + b1 (ix1 (featOf i))) 0
    rw [aggN_eq G64 D64 G1 g sI dI dR (mm x W1) hg hG64 hG1 hD64 hd i]
  have A2 : actR b2 (a2R G64 D64 G32 D32 G1 g sI dI dR x W1 b1 W2)
      = actK g b2 (a2K G64 D64 G32 D32 g sI dR x W1 b1 W2) := by
    funext i
    show max (aggN G32 D32 G1 g sI dI dR (mm (actR b1 (a1R G64 D64 G1 g sI dI dR x W1)) W2) i
        + b2 (ix1 (featOf i))) 0
      = max (agg G32 D32 sI dR (scaled g (mm (actK g b1 (a1K G64 D64 g sI dR x W1)) W2)) i * g (ix1 (nodeOf i))
        + b2 (ix1 (featOf i))) 0
    rw [A1, aggN_eq G32 D32 G1 g sI dI dR _ hg hG32 hG1 hD32 hd i]
  funext i
  show Ideal.div 1 (1 + Ideal.exp (-(mm (actR b2 (a2R G64 D64 G32 D32 G1 g sI dI dR x W1 b1 W2)) fcw i + fcb (ix1 0))))
    = Ideal.logistic (mm (actK g b2 (a2K G64 D64 G32 D32 g sI dR x W1 b1 W2)) fcw i + fcb (ix1 0))
  rw [A2]
  rfl
end

end Gcn

end
-- ==== Proof.LibRowGather.lean ====
/-
  ROW GATHER AND ROW SCATTER READ AT AN INDEX. What `x[idx]` of a matrix `x : [N, C]` (or of a vector `x : [N]`) at a
  column of integer indices `idx : [E, 1]` lowers to is a `stablehlo.gather` whose result row `e` is the operand's row
  `idx[e, 0]`, read signed and clamped into `[0, N − 1]`; a segment sum over the same indices lowers to a
  `stablehlo.scatter` whose update row `e` lands on the operand's row `idx[e, 0]`, read signed and NOT clamped (an
  update whose row is outside the operand is dropped). The lemmas below read both index maps off the dimension numbers,
  for every number of rows `N`, of index entries `E`, of columns `C` and every index word width `w`. Last, two facts on
  the extended reals: a finite sum times a nonnegative real distributes, and the reciprocal square root of a positive
  extended real is a nonnegative real.
-/
import Idealize.ShloMosaic.PureOps.Ideal
import Idealize.ShloMosaic.PureOps.Ideal.Laws
import Idealize.ShloMosaic.Lib.ValueIdx

noncomputable section

open scoped BigOperators

namespace Idealize.ShloMosaic.RowGather

open Idealize.ShloMosaic Idealize.ShloMosaic.ValueIdx

/-! ## `x[idx]` of a matrix: the gather of whole rows -/

/-- The dimension numbers of the row gather: operand `[N, C]`, start indices `[E, 1]`, result `[E, C]`; the row axis
    is collapsed and indexed, the column axis is the one offset axis, a slice is one whole row `[1, C]`. Their
    conditions `wf` are decided on a program's literal shapes. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER'S OPERAND INDEX: result element `(e, c)` reads the operand at row `idx[e, 0]`, read signed and
    clamped into `[0, N − 1]`, and column `c`. -/
theorem rowGather_operandIdx {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGather N E C wf).operandIdx (ix2 e c) idx
      = ix2 (⟨min (idx (ix2 e 0)).toInt.toNat (N - 1), by omega⟩ : Fin N) c := by
  have h0 : (rowGather N E C wf).start (ix2 e c) idx (0 : Fin 2) + (rowGather N E C wf).batchCoord (ix2 e c) (0 : Fin 2)
      + (rowGather N E C wf).offCoord (ix2 e c) (0 : Fin 2) = min (idx (ix2 e 0)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : (rowGather N E C wf).start (ix2 e c) idx (1 : Fin 2) + (rowGather N E C wf).batchCoord (ix2 e c) (1 : Fin 2)
      + (rowGather N E C wf).offCoord (ix2 e c) (1 : Fin 2) = c.val := by
    rw [GatherDims.batchCoord_eq_zero _ _ _ List.not_mem_nil]
    have hs : (rowGather N E C wf).start (ix2 e c) idx (1 : Fin 2) = 0 := by
      unfold GatherDims.start
      rw [dif_neg (fun h => absurd (List.mem_singleton.mp h) (show (1 : Fin 2) ≠ 0 by decide))]
    rw [hs, Nat.add_zero, Nat.zero_add]
    rfl
  funext a
  refine Fin.ext ?_
  match a with
  | ⟨0, _⟩ => exact h0
  | ⟨1, _⟩ => exact h1

/-! ## `x[idx]` of a vector: the gather of single entries -/

/-- The dimension numbers of the entry gather: operand `[N]`, start indices `[E, 1]`, result `[E]`; the one operand
    axis is collapsed and indexed, there is no offset axis, a slice is one entry `[1]`. Their conditions `wf` are decided
    on a program's literal shapes. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER'S OPERAND INDEX: result element `e` reads the operand at `idx[e, 0]`, read signed and clamped
    into `[0, N − 1]`. -/
theorem vecGather_operandIdx {N E w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecGather N E wf).operandIdx (ix1 e) idx
      = ix1 (⟨min (idx (ix2 e 0)).toInt.toNat (N - 1), by omega⟩ : Fin N) := by
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## The segment sum's scatter of whole rows -/

/-- The dimension numbers of the row scatter: operand `[N, C]`, scatter indices `[E, 1]`, updates `[E, C]`; the row
    axis is inserted and indexed, the updates' column axis is the one window axis. Their conditions `wf` are decided on a
    program's literal shapes. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- THE ROW SCATTER'S RESULT INDEX: when update element `(e, c)` lands at operand index `i`, the row of `i` is the
    scatter index `idx[e, 0]` read signed (so that index is in `[0, N − 1]`: an update is never clamped, it is dropped when
    its row is outside), and the column of `i` is `c`. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (rowScatter N E C wf).resultIdx? (ix2 e c) idx = some i) :
    (idx (ix2 e 0)).toInt = (((i 0 : Fin N).val : Nat) : Int) ∧ c.val = (i 1 : Fin C).val := by
  have hs0 : (rowScatter N E C wf).start (ix2 e c) idx (0 : Fin 2) = (idx (ix2 e 0)).toInt := by
    unfold ScatterDims.start
    rw [dif_pos (show (0 : Fin 2) ∈ (rowScatter N E C wf).scatterDimsToOperandDims from List.mem_singleton.mpr rfl)]
    have hsi : (rowScatter N E C wf).siIdx (ix2 e c) ⟨List.idxOf (0 : Fin 2) (rowScatter N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hs1 : (rowScatter N E C wf).start (ix2 e c) idx (1 : Fin 2) = 0 := by
    unfold ScatterDims.start
    rw [dif_neg (fun h => absurd (List.mem_singleton.mp h) (show (1 : Fin 2) ≠ 0 by decide))]
  have hw0 : (rowScatter N E C wf).window (ix2 e c) (0 : Fin 2) = 0 := by
    unfold ScatterDims.window
    rw [dif_neg (by simp [ScatterDims.sKept, Shape.kept, List.mem_filter, List.mem_finRange])]
  have hw1 : (rowScatter N E C wf).window (ix2 e c) (1 : Fin 2) = c.val := by
    unfold ScatterDims.window
    rw [dif_pos (by simp [ScatterDims.sKept, Shape.kept, List.mem_filter, List.mem_finRange])]
    rfl
  unfold ScatterDims.resultIdx? at h
  split at h
  · rename_i hin
    have hi := Option.some.inj h
    subst hi
    have h0 := (hin (0 : Fin 2)).1
    rw [hs0, hw0] at h0
    refine ⟨?_, ?_⟩
    · show _ = (((((rowScatter N E C wf).start (ix2 e c) idx (0 : Fin 2)
        + ((rowScatter N E C wf).window (ix2 e c) (0 : Fin 2) : Nat)).toNat : Nat)) : Int)
      rw [hs0, hw0]
      omega
    · show _ = ((rowScatter N E C wf).start (ix2 e c) idx (1 : Fin 2)
        + ((rowScatter N E C wf).window (ix2 e c) (1 : Fin 2) : Nat)).toNat
      rw [hs1, hw1]
      omega
  · exact absurd h (by simp)

/-! ## Two facts on the extended reals -/

/-- A finite sum of extended reals times a nonnegative REAL is the sum of the products (multiplication by a
    nonnegative finite factor distributes over the extended reals' addition, whatever the signs and infinities of the
    terms). -/
theorem sum_mul_coe_nonneg {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The reciprocal square root of a positive extended real is a nonnegative real: `0` at `⊤`, `(√r)⁻¹` at a positive
    real `r`. -/
theorem rsqrt_pos_is_real (x : EReal) (hx : 0 < x) : ∃ r : ℝ, 0 ≤ r ∧ Ideal.rsqrt x = (r : EReal) := by
  induction x using EReal.rec with
  | bot => exact absurd hx (by simp)
  | top => exact ⟨0, le_refl _, rfl⟩
  | coe r =>
    have hr : 0 < r := EReal.coe_pos.mp hx
    refine ⟨(Real.sqrt r)⁻¹, inv_nonneg.mpr (Real.sqrt_nonneg r), ?_⟩
    show (if r < 0 then ⊥ else if r = 0 then ⊤ else (((Real.sqrt r)⁻¹ : ℝ) : EReal)) = _
    rw [if_neg (not_lt.mpr hr.le), if_neg hr.ne']

end Idealize.ShloMosaic.RowGather

end
-- ==== Proof.DimsFacts.lean ====
/-
  THE PRINTED DIMENSION NUMBERS ARE THE ROW GATHER'S AND THE ROW SCATTER'S. The reference's three gathers and two
  scatters over the 100000 nodes and the 3300000 edge endpoints are, record for record, the row gather, the entry gather
  and the row scatter of Proof/LibRowGather.lean at these sizes; so a gather reads the row its endpoint word names once
  clamped to the nodes, and a scatter writes only at the node its endpoint word names. The kernel's records of the same
  names are the reference's.
-/
import proofs.«146168_j62569083568519_2_alg».proof.Proof.Gen.KernelIdeal
import proofs.«146168_j62569083568519_2_alg».proof.Proof.Gen.ReferenceIdeal
import proofs.«146168_j62569083568519_2_alg».proof.Proof.Spec
import proofs.«146168_j62569083568519_2_alg».proof.Proof.LibRowGather

noncomputable section

namespace Cert.DimsFacts

open Idealize.ShloMosaic Idealize.ShloMosaic.ValueIdx Idealize.ShloMosaic.RowGather

/-! ## The reference's records are the general ones at the program's sizes -/

/-- The 64-column gather's dimension numbers are the row gather's. -/
theorem refGather64_eq : Cert.ReferenceIdeal.gather_S100000x64_S3300000x1_S3300000x64_1_0_n_n_0_1_164
    = rowGather 100000 3300000 64 Cert.ReferenceIdeal.Gen.gather_S100000x64_S3300000x1_S3300000x64_1_0_n_n_0_1_164_wf := rfl
/-- The 32-column gather's dimension numbers are the row gather's. -/
theorem refGather32_eq : Cert.ReferenceIdeal.gather_S100000x32_S3300000x1_S3300000x32_1_0_n_n_0_1_132
    = rowGather 100000 3300000 32 Cert.ReferenceIdeal.Gen.gather_S100000x32_S3300000x1_S3300000x32_1_0_n_n_0_1_132_wf := rfl
/-- The per-node vector's gather has the entry gather's dimension numbers. -/
theorem refGather1_eq : Cert.ReferenceIdeal.gather_S100000_S3300000x1_S3300000_n_0_n_n_0_1_1
    = vecGather 100000 3300000 Cert.ReferenceIdeal.Gen.gather_S100000_S3300000x1_S3300000_n_0_n_n_0_1_1_wf := rfl
/-- The 64-column scatter's dimension numbers are the row scatter's. -/
theorem refScatter64_eq : Cert.ReferenceIdeal.scatter_S100000x64_S3300000x1_S3300000x64_1_0_0_1
    = rowScatter 100000 3300000 64 Cert.ReferenceIdeal.Gen.scatter_S100000x64_S3300000x1_S3300000x64_1_0_0_1_wf := rfl
/-- The 32-column scatter's dimension numbers are the row scatter's. -/
theorem refScatter32_eq : Cert.ReferenceIdeal.scatter_S100000x32_S3300000x1_S3300000x32_1_0_0_1
    = rowScatter 100000 3300000 32 Cert.ReferenceIdeal.Gen.scatter_S100000x32_S3300000x1_S3300000x32_1_0_0_1_wf := rfl

/-! ## What the gathers read and where the scatters write -/

/-- The 64-column gather reads, for edge `e` and column `c`, row `clampRow idx[e, 0]` and column `c`. -/
theorem hG64 (idx : IVec Gcn.SE1 32) (e : Fin 3300000) (c : Fin 64) :
    Cert.ReferenceIdeal.gather_S100000x64_S3300000x1_S3300000x64_1_0_n_n_0_1_164.operandIdx (ix2 e c) idx
      = ix2 (Gcn.clampRow (idx (ix2 e 0))) c := by
  rw [refGather64_eq]
  exact rowGather_operandIdx (by decide) _ idx e c

/-- The 32-column gather reads, for edge `e` and column `c`, row `clampRow idx[e, 0]` and column `c`. -/
theorem hG32 (idx : IVec Gcn.SE1 32) (e : Fin 3300000) (c : Fin 32) :
    Cert.ReferenceIdeal.gather_S100000x32_S3300000x1_S3300000x32_1_0_n_n_0_1_132.operandIdx (ix2 e c) idx
      = ix2 (Gcn.clampRow (idx (ix2 e 0))) c := by
  rw [refGather32_eq]
  exact rowGather_operandIdx (by decide) _ idx e c

/-- The per-node vector's gather reads, for edge `e`, entry `clampRow idx[e, 0]`. -/
theorem hG1 (idx : IVec Gcn.SE1 32) (e : Fin 3300000) :
    Cert.ReferenceIdeal.gather_S100000_S3300000x1_S3300000_n_0_n_n_0_1_1.operandIdx (ix1 e) idx
      = ix1 (Gcn.clampRow (idx (ix2 e 0))) := by
  rw [refGather1_eq]
  exact vecGather_operandIdx (by decide) _ idx e

/-- When the 64-column scatter lands edge `e`'s update at index `i`, the endpoint word `idx[e, 0]`, read signed, is
    the node of `i`. -/
theorem hD64 (idx : IVec Gcn.SE1 32) (e : Fin 3300000) (c : Fin 64) (i : (Gcn.SNx 64).Idx)
    (h : Cert.ReferenceIdeal.scatter_S100000x64_S3300000x1_S3300000x64_1_0_0_1.resultIdx? (ix2 e c) idx = some i) :
    (idx (ix2 e 0)).toInt = (((Gcn.nodeOf i).val : Nat) : Int) := by
  rw [refScatter64_eq] at h
  exact (rowScatter_resultIdx _ idx e c i h).1

/-- When the 32-column scatter lands edge `e`'s update at index `i`, the endpoint word `idx[e, 0]`, read signed, is
    the node of `i`. -/
theorem hD32 (idx : IVec Gcn.SE1 32) (e : Fin 3300000) (c : Fin 32) (i : (Gcn.SNx 32).Idx)
    (h : Cert.ReferenceIdeal.scatter_S100000x32_S3300000x1_S3300000x32_1_0_0_1.resultIdx? (ix2 e c) idx = some i) :
    (idx (ix2 e 0)).toInt = (((Gcn.nodeOf i).val : Nat) : Int) := by
  rw [refScatter32_eq] at h
  exact (rowScatter_resultIdx _ idx e c i h).1

/-! ## The kernel's records of the same names are the reference's -/

/-- The kernel's 64-column gather has the reference's dimension numbers. -/
theorem gather64_eq : Cert.KernelIdeal.gather_S100000x64_S3300000x1_S3300000x64_1_0_n_n_0_1_164
    = Cert.ReferenceIdeal.gather_S100000x64_S3300000x1_S3300000x64_1_0_n_n_0_1_164 := rfl
/-- The kernel's 32-column gather has the reference's dimension numbers. -/
theorem gather32_eq : Cert.KernelIdeal.gather_S100000x32_S3300000x1_S3300000x32_1_0_n_n_0_1_132
    = Cert.ReferenceIdeal.gather_S100000x32_S3300000x1_S3300000x32_1_0_n_n_0_1_132 := rfl
/-- The kernel's 64-column scatter has the reference's dimension numbers. -/
theorem scatter64_eq : Cert.KernelIdeal.scatter_S100000x64_S3300000x1_S3300000x64_1_0_0_1
    = Cert.ReferenceIdeal.scatter_S100000x64_S3300000x1_S3300000x64_1_0_0_1 := rfl
/-- The kernel's 32-column scatter has the reference's dimension numbers. -/
theorem scatter32_eq : Cert.KernelIdeal.scatter_S100000x32_S3300000x1_S3300000x32_1_0_0_1
    = Cert.ReferenceIdeal.scatter_S100000x32_S3300000x1_S3300000x32_1_0_0_1 := rfl
/-- The kernel's per-node vector scatter has the reference's dimension numbers. -/
theorem scatter1_eq : Cert.KernelIdeal.scatter_S100000_S3300000x1_S3300000_n_0_0_1
    = Cert.ReferenceIdeal.scatter_S100000_S3300000x1_S3300000_n_0_0_1 := rfl

end Cert.DimsFacts

end
-- ==== Proof.Bridge.lean ====
/-
  The kernel-shaped arithmetic — node weights applied before the gather and after the sum — at the kernel's own
  dimension numbers and at the kernel's edge columns (the sources with a negative endpoint moved up by the number of
  nodes, the raw destinations) is the reference's result. The kernel's dimension numbers are the reference's, its two
  edge columns are the reference's source column for the gathers and destination column for the scatters, the
  reference's result is the edge-scaled arithmetic at those columns, and the two arithmetics agree because every node
  weight is a non-negative real, a gather reads the row its clamped endpoint names, a scatter writes only at the node
  its endpoint names, and a destination that a scatter accepts is the node the gathers read for that edge.
-/
import proofs.«146168_j62569083568519_2_alg».proof.Proof.Stages
import proofs.«146168_j62569083568519_2_alg».proof.Proof.RefIsR
import proofs.«146168_j62569083568519_2_alg».proof.Proof.SpecLaw
import proofs.«146168_j62569083568519_2_alg».proof.Proof.DimsFacts

noncomputable section

namespace Cert.Bridge

open Cert.ReferenceIdeal Cert.ReferenceIdeal.Gen Idealize.ShloMosaic Idealize.ShloMosaic.ValueIdx Cert.ReferenceIdeal.ReadP
  Cert.ReferenceIdeal.RefValue Cert.DimsFacts

/-- The kernel's source column of the reference's source endpoints is the reference's source column. -/
theorem srcCol_eq (x1 : (⟨S2x3200000, .i32⟩ : BufTy).Contents (Elt Ideal)) :
    Cert.KernelIdeal.Stages.srcCol (val_main_v6 (F := Ideal) x1) = val_main_v36 (F := Ideal) x1 := rfl

/-- The kernel's destination column of the reference's destination endpoints is the reference's destination column. -/
theorem dstCol_eq (x1 : (⟨S2x3200000, .i32⟩ : BufTy).Contents (Elt Ideal)) :
    Cert.KernelIdeal.Stages.dstCol (val_main_v7 (F := Ideal) x1) = val_main_v42 (F := Ideal) x1 := rfl

/-- The kernel-shaped arithmetic at the kernel's records and edge columns is the reference's result, when the node
    weights and the two endpoint arrays are the reference's own. -/
theorem bridge (x0 : (⟨S100000x256, .f32⟩ : BufTy).Contents (Elt Ideal)) (x1 : (⟨S2x3200000, .i32⟩ : BufTy).Contents (Elt Ideal))
    (x2 : (⟨S256x64, .f32⟩ : BufTy).Contents (Elt Ideal)) (x3 : (⟨S64, .f32⟩ : BufTy).Contents (Elt Ideal))
    (x4 : (⟨S64x32, .f32⟩ : BufTy).Contents (Elt Ideal)) (x5 : (⟨S32, .f32⟩ : BufTy).Contents (Elt Ideal))
    (x6 : (⟨S32x1, .f32⟩ : BufTy).Contents (Elt Ideal)) (x7 : (⟨S1, .f32⟩ : BufTy).Contents (Elt Ideal))
    (g : Gcn.SN.Idx → EReal) (s d : IVec Cert.KernelIdeal.S3300000 32)
    (hg : g = val_main_v15 (F := Ideal) x1) (hs : s = val_main_v6 (F := Ideal) x1) (hd : d = val_main_v7 (F := Ideal) x1) :
    Gcn.outK Cert.KernelIdeal.gather_S100000x64_S3300000x1_S3300000x64_1_0_n_n_0_1_164
        Cert.KernelIdeal.scatter_S100000x64_S3300000x1_S3300000x64_1_0_0_1
        Cert.KernelIdeal.gather_S100000x32_S3300000x1_S3300000x32_1_0_n_n_0_1_132
        Cert.KernelIdeal.scatter_S100000x32_S3300000x1_S3300000x32_1_0_0_1
        g (Cert.KernelIdeal.Stages.srcCol s) (Cert.KernelIdeal.Stages.dstCol d) x0 x2 x3 x4 x5 x6 x7
      = val_main_v101 (F := Ideal) x0 x1 x2 x3 x4 x5 x6 x7 := by
  subst hg hs hd
  rw [gather64_eq, scatter64_eq, gather32_eq, scatter32_eq, srcCol_eq, dstCol_eq]
  exact (Gcn.outR_eq_outK gather_S100000x64_S3300000x1_S3300000x64_1_0_n_n_0_1_164 scatter_S100000x64_S3300000x1_S3300000x64_1_0_0_1
      gather_S100000x32_S3300000x1_S3300000x32_1_0_n_n_0_1_132 scatter_S100000x32_S3300000x1_S3300000x32_1_0_0_1
      gather_S100000_S3300000x1_S3300000_n_0_n_n_0_1_1 (val_main_v15 (F := Ideal) x1) (val_main_v36 (F := Ideal) x1)
      (val_main_v28 (F := Ideal) x1) (val_main_v42 (F := Ideal) x1) x0 x2 x3 x4 x5 x6 x7
      (ref_hg x1) hG64 hG32 hG1 hD64 hD32 (fun e v h => ref_hd x1 e v h)).symm.trans
    (ref_is_outR x0 x1 x2 x3 x4 x5 x6 x7).symm

end Cert.Bridge

end
-- ==== Proof.lean ====
/-
  The certificate of a two-layer graph convolution with a linear read-out and a logistic, as three kernel regions
  among host gathers and scatter-adds, against its jnp reference.

  The kernel scales every node's features by the node's normalisation weight `g v = deg(v)^(-1/2)` (zero where the
  degree is not positive) BEFORE gathering them along the edges, sums the gathered rows into their destination nodes,
  and scales the sum by the destination's weight AFTER the sum; the reference scales the gathered row of every edge by
  the product of the edge's two weights and then sums. On the extended reals the two agree because every weight is a
  non-negative real number — the reciprocal square root of a positive extended real is one, `+∞` going to `0` — and a
  product by a non-negative real distributes over any finite sum of extended reals; an edge lands in the sum of a
  node only when its destination endpoint, read as a signed integer, is that node, and then the gather of the weights
  reads that same node (a non-negative endpoint is neither moved nor clamped). The matrix products, the biases, the
  clip at zero and the logistic are the same operations on both sides; the changes of float format are the identity.
  No finiteness of the inputs is used.

  Where each part is: the arithmetic twice over and the law between the two (Proof/Spec.lean, SpecLaw.lean); the row
  gather and the row scatter-add read at an index (Proof/LibRowGather.lean, DimsFacts.lean); what each kernel region
  leaves in its output array (Proof/Reg0.lean, Reg1.lean, Reg2.lean), the host stretches between them
  (Proof/Stages.lean), the buffers walked back through the run (Proof/Walk.lean), the run with its result named
  (Proof/RunVal.lean) and the result as the first arithmetic (Proof/KPure.lean, KVal.lean); the reference's term as the
  second (Proof/RefIsR.lean, over Proof/RefRun.lean and RefRead.lean); the two programs' edge endpoints and node
  weights are the same arrays (Proof/IdxSame.lean), which joins the two (Proof/Bridge.lean).
-/
import proofs.«146168_j62569083568519_2_alg».proof.Defs
import proofs.«146168_j62569083568519_2_alg».proof.Proof.Gen.Kernel
import proofs.«146168_j62569083568519_2_alg».proof.Proof.Gen.Kernel.Skeleton
import proofs.«146168_j62569083568519_2_alg».proof.Proof.Gen.Kernel.Launch
import proofs.«146168_j62569083568519_2_alg».proof.Proof.Gen.Kernel.Points
import proofs.«146168_j62569083568519_2_alg».proof.Proof.Gen.Kernel.Frame
import proofs.«146168_j62569083568519_2_alg».proof.Proof.Gen.KernelIdeal
import proofs.«146168_j62569083568519_2_alg».proof.Proof.Gen.KernelIdeal.Skeleton
import proofs.«146168_j62569083568519_2_alg».proof.Proof.Gen.KernelIdeal.Launch
import proofs.«146168_j62569083568519_2_alg».proof.Proof.Gen.KernelIdeal.Points
import proofs.«146168_j62569083568519_2_alg».proof.Proof.Gen.KernelIdeal.Frame
import proofs.«146168_j62569083568519_2_alg».proof.Proof.Gen.ReferenceIdeal
import proofs.«146168_j62569083568519_2_alg».proof.Proof.Gen.Pre_finite_inputs
import proofs.«146168_j62569083568519_2_alg».proof.Proof.RefRun
import proofs.«146168_j62569083568519_2_alg».proof.Proof.RefRead
import proofs.«146168_j62569083568519_2_alg».proof.Proof.RunVal
import proofs.«146168_j62569083568519_2_alg».proof.Proof.KVal
import proofs.«146168_j62569083568519_2_alg».proof.Proof.IdxSame
import proofs.«146168_j62569083568519_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- The reference's run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealized kernel is the word-level kernel operation for operation (no operation was rewritten), so nothing is owed here. -/
theorem preserves : Cert.preserves_Kernel_KernelIdeal := trivial

/-- The idealized kernel's result array ends at the reference's term of the kernel's arguments. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W8 m ρ c (Proc.devRef .tc Cert.KernelIdeal.main_v43)
      = Cert.ReferenceIdeal.ReadP.val_main_v101 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
  (Cert.KernelIdeal.KVal.result_eq m ρ c).trans
    (Cert.Bridge.bridge _ _ _ _ _ _ _ _ _ _ _ (Cert.IdxSame.g_eq m ρ c) (Cert.IdxSame.s5_eq m ρ c) (Cert.IdxSame.d6_eq m ρ c))

/-- From memories agreeing on the arguments both idealized programs end with the reference's term of those arguments. -/
theorem algebraic : Cert.algebraic_KernelIdeal_ReferenceIdeal := by
  intro m ρ m' ρ' _ hagree
  refine ⟨fun c => Cert.ReferenceIdeal.ReadP.val_main_v101 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (kernel_value m ρ c), (h c).2⟩)
      (Cert.KernelIdeal.RunVal.run_out (F := Ideal) m ρ)
  · refine (θ_run Cert.ReferenceIdeal.defs _ _).mono (fun _ h c => ⟨?_, (h c).2⟩) (Cert.ReferenceIdeal.ValueP.run (F := Ideal) m' ρ')
    rw [(h c).1, Cert.ReferenceIdeal.ReadP.val_main_v101_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
